-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S800000 32) (main_arg1 : IVec S800000 32) (main_arg2 : FVec F S800000 .f32) (main_arg3 : FVec F S100000x128 .f32) (main_arg4 : FVec F S128x128 .f32) (main_arg5 : FVec F S128 .f32) (main_arg6 : FVec F S128x128 .f32) (main_arg7 : FVec F S128 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S800000 : Shape := ⟨1, ![800000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S1x128 : Shape := ⟨2, ![1, 128]⟩
abbrev S2048x128 : Shape := ⟨2, ![2048, 128]⟩

abbrev nBuf : Space → Nat
  | .hbm => 92
  | .vmem => 9
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S100000, .f32⟩
  | .hbm, ⟨10, _⟩ => ⟨S800000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S800000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S100000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000, .f32⟩
  | .hbm, ⟨51, _⟩ => ⟨S800000, .f32⟩
  | .hbm, ⟨52, _⟩ => ⟨S800000x1, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S100000x128, .f32⟩
  | .hbm, ⟨66, _⟩ => ⟨S800000x1, .i32⟩
  | .hbm, ⟨67, _⟩ => ⟨S100000x128, .f32⟩
  | .hbm, ⟨68, _⟩ => ⟨S100000x128, .f32⟩
  | .hbm, ⟨69, _⟩ => ⟨S800000x1, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S100000x128, .f32⟩
  | .hbm, ⟨83, _⟩ => ⟨S800000x1, .i32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2048x128, .f32⟩
  | .local _ .vmem, ⟨8, _⟩ => ⟨S2048x128, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S100000 : S_.BroadcastsInDim S100000 (![] : Fin 0 → Fin S100000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S_S128 : S_.BroadcastsInDim S128 (![] : Fin 0 → Fin S128.rank)
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x128.size a < S100000x128.size a
  hwx0_0 : ∀ i : grid0.Coords, EltTy.bits .f32 = 32 ∨ (Rect.unit (s := S100000x128) (fun a => cc0_transform_0 i a * S2048x128.size a) (fun a => (Pipeline.Clip.of (cc0_transform_0 i a) (S2048x128.size a) (S100000x128.size a)).extent (S2048x128.size a)) fun a => Pipeline.Clip.inb (Pipeline.Clip.ok_of (hstart0_0 i a))).WholeWords (EltTy.packing .f32)
  hwxs0_0 : ∀ i : grid0.Coords, EltTy.bits .f32 = 32 ∨ (Rect.unit (s := S2048x128) (fun _ => 0) (fun a => (Pipeline.Clip.of (cc0_transform_0 i a) (S2048x128.size a) (S100000x128.size a)).extent (S2048x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S100000x128.size a
  hwx0_1 : ∀ i : grid0.Coords, EltTy.bits .f32 = 32 ∨ (Rect.unit (s := S100000x128) (fun a => cc0_transform_1 i a * S2048x128.size a) (fun a => (Pipeline.Clip.of (cc0_transform_1 i a) (S2048x128.size a) (S100000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S100000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2048x128.size a < S100000x128.size a
  hwx0_5 : ∀ i : grid0.Coords, EltTy.bits .f32 = 32 ∨ (Rect.unit (s := S100000x128) (fun a => cc0_transform_5 i a * S2048x128.size a) (fun a => (Pipeline.Clip.of (cc0_transform_5 i a) (S2048x128.size a) (S100000x128.size a)).extent (S2048x128.size a)) fun a => Pipeline.Clip.inb (Pipeline.Clip.ok_of (hstart0_5 i a))).WholeWords (EltTy.packing .f32)
  hwxs0_5 : ∀ i : grid0.Coords, EltTy.bits .f32 = 32 ∨ (Rect.unit (s := S2048x128) (fun _ => 0) (fun a => (Pipeline.Clip.of (cc0_transform_5 i a) (S2048x128.size a) (S100000x128.size a)).extent (S2048x128.size a)) fun a => (Nat.zero_add _).trans_le (Pipeline.Clip.extent_le (Pipeline.Clip.ok_of (hstart0_5 i a)))).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpecClip (Memref.whole main_v57) S2048x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v56) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v62) S2048x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S800000 : Shape := ⟨1, ![800000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S1x128 : Shape := ⟨2, ![1, 128]⟩
abbrev S800000x128 : Shape := ⟨2, ![800000, 128]⟩

abbrev nBuf : Space → Nat
  | .hbm => 107
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S100000, .f32⟩
  | .hbm, ⟨10, _⟩ => ⟨S800000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S800000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S100000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000, .f32⟩
  | .hbm, ⟨51, _⟩ => ⟨S800000, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S800000x1, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S100000x128, .f32⟩
  | .hbm, ⟨70, _⟩ => ⟨S800000x1, .i32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S800000x1, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S800000x128, .f32⟩
  | .hbm, ⟨88, _⟩ => ⟨S800000x128, .f32⟩
  | .hbm, ⟨89, _⟩ => ⟨S_, .f32⟩
  | .hbm, ⟨90, _⟩ => ⟨S100000x128, .f32⟩
  | .hbm, ⟨91, _⟩ => ⟨S800000x1, .i32⟩
  | .hbm, ⟨92, _⟩ => ⟨S100000x128, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S_, .f32⟩
  | .hbm, ⟨101, _⟩ => ⟨S100000x128, .f32⟩
  | .hbm, ⟨102, _⟩ => ⟨S100000x128, .i1⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S100000x128, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v71 : Ref sig .tc := ⟨.hbm, 106, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S800000_S800000x1_0 : S800000.BroadcastsInDim S800000x1 (![0] : Fin 1 → Fin S800000x1.rank)
  bcast_S_S800000 : S_.BroadcastsInDim S800000 (![] : Fin 0 → Fin S800000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.KernelBody.lean ====
/-
  The kernel body's separation-logic triple. On six whole staging memrefs — the two row blocks, the two weights and
  the bias at the contents read, the output's at anything — the body runs to the continuation holding the five inputs
  as they were and the output's buffer at the payload of the five contents read: the one store covers the whole
  buffer, so what the buffer held before (and what the dead load of it found) is gone.
-/
import proofs.«121737_j32229434589221_1_alg».proof.Proof.Gen.Kernel.Frame
import proofs.«121737_j32229434589221_1_alg».proof.Proof.Gen.Kernel.Skeleton
import Idealize.ShloMosaic.Lib.Pipeline.Frame
import Idealize.ShloMosaic.Lib.Exec.Geometry
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle -/

section Whole

variable {sg : RefSig} {κ : Kind} {sp : Space} {S : Shape} {e : EltTy} {Val : EltTy → Type}

/-- A load through the whole-shape rectangle at zero offsets reads what the view reads. -/
theorem readAt_whole_rect (v : View sg κ sp S e) {off : Fin S.rank → Nat} (h : off = fun _ => 0)
    (inb : ∀ a, off a + S.size a ≤ S.size a) (f : v.ty.Contents Val) :
    v.readAt Val (Rect.unit off S.size inb).toLoadRect f = v.read Val f :=
  View.ld_unit_zero h inb _

/-- After one store through it, whatever the buffer held, the view reads the store's payload. -/
theorem read_writes_whole_rect [∀ e, Nonempty (Val e)] (v : View sg κ sp S e) {off : Fin S.rank → Nat} (h : off = fun _ => 0)
    (inb : ∀ a, off a + S.size a ≤ S.size a) (f : v.ty.Contents Val) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

end Whole

/-! ## The body's triple -/

set_option maxHeartbeats 2000000 in
/-- The kernel body on whole staging memrefs: the five inputs' at the contents read, the output's at anything, to the
    continuation holding the inputs unchanged and the output's at the payload of the five contents. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2048x128 .f32) (harg6 : arg6.IsWhole)
    (x0 x1 : Vec F S2048x128 .f32) (w1 w2 : Vec F S128x128 .f32) (b : Vec F S1x128 .f32) (K : PUnit → sProp 𝕄) :
    iprop(owns (c : Thread nD τ) arg1 fullShare x0 ∗ owns (c : Thread nD τ) arg2 fullShare x1 ∗ owns (c : Thread nD τ) arg3 fullShare w1
        ∗ owns (c : Thread nD τ) arg4 fullShare w2 ∗ owns (c : Thread nD τ) arg5 fullShare b ∗ (∃ d, owns (c : Thread nD τ) arg6 fullShare d)
        ∗ (iprop(owns (c : Thread nD τ) arg1 fullShare x0 ∗ owns (c : Thread nD τ) arg2 fullShare x1 ∗ owns (c : Thread nD τ) arg3 fullShare w1
            ∗ owns (c : Thread nD τ) arg4 fullShare w2 ∗ owns (c : Thread nD τ) arg5 fullShare b
            ∗ owns (c : Thread nD τ) arg6 fullShare (k0_pay1 x0 x1 w1 w2 b)) -∗ K ⟨⟩))
      ⊢ wp frame (wpE (defs₀ (F := F)) Variants.none c none) E
          (cc0__ngcf_kernel i arg1 harg1 arg2 harg2 arg3 harg3 arg4 harg4 arg5 harg5 arg6 harg6) K := by
  have hz : (![0, 0] : Fin 2 → Nat) = fun _ => 0 := funext fun a => by fin_cases a <;> rfl
  simp only [cc0__ngcf_kernel_eq_skeleton]; unfold cc0__ngcf_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the one store is through the whole-buffer rectangle: the buffer then reads as the payload; each load was through
  -- the whole-buffer rectangle of its memref: it read the contents
  rw [read_writes_whole_rect _ hz, readAt_whole_rect arg1.view hz, readAt_whole_rect arg2.view hz, readAt_whole_rect arg3.view hz,
    readAt_whole_rect arg4.view hz, readAt_whole_rect arg5.view hz]

end Cert.Kernel.Hand

end
-- ==== Proof.KernelFrame.lean ====
/-
  The frame of the word-level program. The two row-block windows and the output window overhang their arrays at
  the last grid point, so their transfers there are cut and a staging buffer's tail rows hold words nothing names:
  those three windows are stated on the rows inside the array only. What the body leaves in the output's buffer is
  named nowhere — the frame claim does not read the output —, so the output window is forgotten: handed to the body
  at any contents and taken back at any contents. The inputs' buffers hold their blocks (the row blocks filled out
  past the array's end by whatever the fetch left there), the body leaves them as it found them, and every argument
  array ends as launched.
-/
import proofs.«121737_j32229434589221_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output window (5) is forgotten: nothing the frame claims reads what the body leaves there. -/
def forgets0 : Fin 6 → Bool := fun w => w.val == 5

/-- The proof data of the one pipeline on core `c`: the arrays as the region finds them; after the body at point
    `t` each row-block window's buffer at its block inside the array, filled out past the array's end with the zero
    word (the obligation states those windows on the rows inside the array only, so the filler is never read); the
    weights' and the bias's buffers at their blocks; the output's, forgotten, unnamed; the invariant the frame's;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t
    = win0_0.fill (grid0.coords t) (fun _ => Scalar.ofBits .f32 0#32) (iblk m c 0 t) := by dsimp only [dats]
theorem after0_1 (c : Dev nD) (t : Fin cfg0.N) : (dats m 0 c).after 1 t
    = win0_1.fill (grid0.coords t) (fun _ => Scalar.ofBits .f32 0#32) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- A row-block window is fetched at every point: its buffer holds the block on the rows inside the array and, past
    the array's end, whatever the fetch left (`d`). -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- The weights' and the bias's buffers hold their blocks at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`: each input window's current buffer at what it holds there, the
    forgotten output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What it returns: the two row-block windows' buffers stated on the rows inside the array, the weights' and the
    bias's at their blocks, the forgotten output's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- The body at any point: each input's buffer holds its block (a row block filled out past the array's end with
    what the fetch left), so the body's triple applies at those contents; it hands the inputs back as it found them
    — a row block's buffer is then its block on the rows inside the array, filled out with the same tail — and the
    output's buffer at what it stored, which nothing names; the invariant and what the core owes pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, win0_0.cut_fill, win0_1.cut_fill]
  iintro ⟨HΦ, Ho, ⟨%d0, H0⟩, ⟨%d1, H1⟩, ⟨%d2, H2⟩, ⟨%d3, H3⟩, ⟨%d4, H4⟩, ⟨%X5, H5⟩⟩
  rw [before0_0 m c t d0, before0_1 m c t d1, before0_2 m c t d2, before0_3 m c t d3, before0_4 m c t d4]
  iapply (sound_kernel c Set.univ (grid0.coords t) _ _ _ _ _ _ _ _ _ _ _ _
    (win0_0.fill (grid0.coords t) d0 (iblk m c 0 t)) (win0_1.fill (grid0.coords t) d1 (iblk m c 1 t))
    (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  iexists _; iexact H5

/-- The library's body obligation, at every point: the output window forgotten, the row-block windows loose. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- At the compiled mesh, for any values, from any memory with zero counters: every weakly fair execution of @main
    on the TensorCores terminates, and every final state has every input array of the pipeline as the region found
    it, nothing stated of the forgotten output, and every other unscoped buffer as the region found it. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget)
    (hshare := fun c => ((dats m 0 c).toRForget forgets0).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame claim's post from the relational frame run's: an argument array a window stages as an input ends at
    its entry contents (an input array is never written), an argument array no window stages by the post's second
    clause; each is then as launched, no host operation before the region having written it. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Eq.mp (congrFun ((rdat c).ArrAt_in 2 rfl _) _) ((h c).1 2)).trans ((hA c 2).trans (V_main_arg4 m c)),
      ((h c).2 main_arg5 (Pipeline.mem_restRefs_of main_arg5 (by decide) (by decide))).trans (V_main_arg5 m c),
      (Eq.mp (congrFun ((rdat c).ArrAt_in 3 rfl _) _) ((h c).1 3)).trans ((hA c 3).trans (V_main_arg6 m c)),
      ((h c).2 main_arg7 (Pipeline.mem_restRefs_of main_arg7 (by decide) (by decide))).trans (V_main_arg7 m c)⟩) h

/-- THE FRAME of the word-level program, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rel m ρ (fun c => (dats m 0 c).toRForget forgets0) (A_eq m) (run_main m ρ)

end Cert.Kernel.Hand

end
-- ==== Proof.KernelIdealBody.lean ====
/-
  The kernel body's separation-logic triple. On six whole staging memrefs — the two row blocks, the two weights and
  the bias at the contents read, the output's at anything — the body runs to the continuation holding the five inputs
  as they were and the output's buffer at the payload of the five contents read: the one store covers the whole
  buffer, so what the buffer held before (and what the dead load of it found) is gone.
-/
import proofs.«121737_j32229434589221_1_alg».proof.Proof.Gen.KernelIdeal.Frame
import proofs.«121737_j32229434589221_1_alg».proof.Proof.Gen.KernelIdeal.Skeleton
import Idealize.ShloMosaic.Lib.Pipeline.Frame
import Idealize.ShloMosaic.Lib.Exec.Geometry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole-buffer rectangle -/

section Whole

variable {sg : RefSig} {κ : Kind} {sp : Space} {S : Shape} {e : EltTy} {Val : EltTy → Type}

/-- A load through the whole-shape rectangle at zero offsets reads what the view reads. -/
theorem readAt_whole_rect (v : View sg κ sp S e) {off : Fin S.rank → Nat} (h : off = fun _ => 0)
    (inb : ∀ a, off a + S.size a ≤ S.size a) (f : v.ty.Contents Val) :
    v.readAt Val (Rect.unit off S.size inb).toLoadRect f = v.read Val f :=
  View.ld_unit_zero h inb _

/-- After one store through it, whatever the buffer held, the view reads the store's payload. -/
theorem read_writes_whole_rect [∀ e, Nonempty (Val e)] (v : View sg κ sp S e) {off : Fin S.rank → Nat} (h : off = fun _ => 0)
    (inb : ∀ a, off a + S.size a ≤ S.size a) (f : v.ty.Contents Val) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

end Whole

/-! ## The body's triple -/

set_option maxHeartbeats 2000000 in
/-- The kernel body on whole staging memrefs: the five inputs' at the contents read, the output's at anything, to the
    continuation holding the inputs unchanged and the output's at the payload of the five contents. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2048x128 .f32) (harg6 : arg6.IsWhole)
    (x0 x1 : Vec F S2048x128 .f32) (w1 w2 : Vec F S128x128 .f32) (b : Vec F S1x128 .f32) (K : PUnit → sProp 𝕄) :
    iprop(owns (c : Thread nD τ) arg1 fullShare x0 ∗ owns (c : Thread nD τ) arg2 fullShare x1 ∗ owns (c : Thread nD τ) arg3 fullShare w1
        ∗ owns (c : Thread nD τ) arg4 fullShare w2 ∗ owns (c : Thread nD τ) arg5 fullShare b ∗ (∃ d, owns (c : Thread nD τ) arg6 fullShare d)
        ∗ (iprop(owns (c : Thread nD τ) arg1 fullShare x0 ∗ owns (c : Thread nD τ) arg2 fullShare x1 ∗ owns (c : Thread nD τ) arg3 fullShare w1
            ∗ owns (c : Thread nD τ) arg4 fullShare w2 ∗ owns (c : Thread nD τ) arg5 fullShare b
            ∗ owns (c : Thread nD τ) arg6 fullShare (k0_pay1 x0 x1 w1 w2 b)) -∗ K ⟨⟩))
      ⊢ wp frame (wpE (defs₀ (F := F)) Variants.none c none) E
          (cc0__ngcf_kernel i arg1 harg1 arg2 harg2 arg3 harg3 arg4 harg4 arg5 harg5 arg6 harg6) K := by
  have hz : (![0, 0] : Fin 2 → Nat) = fun _ => 0 := funext fun a => by fin_cases a <;> rfl
  simp only [cc0__ngcf_kernel_eq_skeleton]; unfold cc0__ngcf_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the one store is through the whole-buffer rectangle: the buffer then reads as the payload; each load was through
  -- the whole-buffer rectangle of its memref: it read the contents
  rw [read_writes_whole_rect _ hz, readAt_whole_rect arg1.view hz, readAt_whole_rect arg2.view hz, readAt_whole_rect arg3.view hz,
    readAt_whole_rect arg4.view hz, readAt_whole_rect arg5.view hz]

end Cert.KernelIdeal.Hand

end
-- ==== Proof.Spec.lean ====
/-
  The function both programs compute, entry by entry, on the extended reals.

  With A = x + S and C = S₂, where S and S₂ are the two neighbourhood sums of the node features
  and of their squares (the same two arrays in both programs), row r and column q of the result are
      leaky ( Σ_c A(r,c)·W₁(c,q) + Σ_c C(r,c)·W₂(c,q) + (2·b₁(q) + b₂(q)) )
  on the kernel's side, and
      leaky ( (Σ_c x(r,c)·W₁(c,q) + b₁(q)) + (Σ_c S(r,c)·W₁(c,q) + b₁(q)) + (Σ_c C(r,c)·W₂(c,q) + b₂(q)) )
  on the reference's. `leaky y` is y when y ≥ 0 and 0.2·y otherwise, 0.2 being the binary32 value
  both programs carry (the same word on both sides, never evaluated).
-/
import Idealize.ShloMosaic.PureOps.Ideal
import Idealize.ShloMosaic.Lib.ValueIdx

noncomputable section

namespace Cert.Spec

open Idealize.ShloMosaic Idealize.ShloMosaic.ValueIdx

/-- The leaky rectifier at one extended real: the comparison with zero selects the value or its
    product with the slope word. -/
def leaky (y : EReal) : EReal :=
  Scalar.select (FloatOps.cmpf (F := Ideal) (φ := .f32) .oge y (Ideal.ofBits .f32 0x00000000#32)) y
    (Ideal.ofBits .f32 0x3E4CCCCD#32 * y)

/-- Row r of an [n,128] array against column q of a [128,128] matrix. -/
def rowDot {n : Nat} (A : (⟨2, ![n, 128]⟩ : Shape).Idx → EReal) (W : (⟨2, ![128, 128]⟩ : Shape).Idx → EReal)
    (r : Fin n) (q : Fin 128) : EReal :=
  ∑ c : Fin 128, A (ix2 r c) * W (ix2 c q)

/-- The kernel's entry: two products added, then the combined bias, then the rectifier. -/
def kernelEntry {n : Nat} (A C : (⟨2, ![n, 128]⟩ : Shape).Idx → EReal)
    (W₁ W₂ : (⟨2, ![128, 128]⟩ : Shape).Idx → EReal) (β : (⟨2, ![1, 128]⟩ : Shape).Idx → EReal)
    (r : Fin n) (q : Fin 128) : EReal :=
  leaky (rowDot A W₁ r q + rowDot C W₂ r q + β (ix2 (0 : Fin 1) q))

/-- The reference's entry: three biased products added, then the rectifier. -/
def referenceEntry {n : Nat} (X S C : (⟨2, ![n, 128]⟩ : Shape).Idx → EReal)
    (W₁ W₂ : (⟨2, ![128, 128]⟩ : Shape).Idx → EReal) (b₁ b₂ : (⟨1, ![128]⟩ : Shape).Idx → EReal)
    (r : Fin n) (q : Fin 128) : EReal :=
  leaky ((rowDot X W₁ r q + b₁ (ix1 q)) + (rowDot S W₁ r q + b₁ (ix1 q)) + (rowDot C W₂ r q + b₂ (ix1 q)))

end Cert.Spec

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.KPayload.lean ====
/-
  The kernel body's one stored value, read at an entry, on the extended reals.

  The body narrows its two row blocks and two weight matrices to a shorter float format (the identity on exact
  values), multiplies each block with its matrix into a zero accumulator, adds the two products, adds the one-row
  bias repeated down the block, and applies the leaky rectifier. Entry (p, q) is therefore
      leaky ( Σ_c x0(p,c)·w1(c,q) + Σ_c x1(p,c)·w2(c,q) + b(0,q) ),
  a function of row p of the two blocks alone.
-/
import proofs.«121737_j32229434589221_1_alg».proof.Proof.Gen.KernelIdeal.Skeleton
import proofs.«121737_j32229434589221_1_alg».proof.Proof.Spec
import proofs.«121737_j32229434589221_1_alg».proof.Proof.LibPlainMatmul
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The printed contraction record is the plain [2048,128] by [128,128] product. -/
theorem dot_eq_plain : dot_S2048x128_S128x128_S2048x128_1_0_0_1_n_n = DotDims.plain 2048 128 128 := rfl

/-- Entry (p, q) of the stored block. -/
theorem payload_apply (x0 x1 : Vec Ideal S2048x128 .f32) (w1 w2 : Vec Ideal S128x128 .f32) (b : Vec Ideal S1x128 .f32)
    (p : Fin 2048) (q : Fin 128) :
    k0_pay1 (F := Ideal) x0 x1 w1 w2 b (ix2 p q) = Cert.Spec.kernelEntry x0 x1 w1 w2 b p q := by
  have hm : ∀ (x : Vec Ideal S2048x128 .f32) (w : Vec Ideal S128x128 .f32),
      matmul (F := Ideal) dot_S2048x128_S128x128_S2048x128_1_0_0_1_n_n none
          (truncf .bf16 (shapeCast S2048x128 x shapeCasts_S2048x128_S2048x128) bitsLt_bf16_f32)
          (truncf .bf16 w bitsLt_bf16_f32) (constant S2048x128 .f32 0x00000000#32) (ix2 p q)
        = Cert.Spec.rowDot x w p q := fun x w => by
    rw [shapeCast_self]
    exact matmul_plain_zero_apply none (truncf .bf16 x bitsLt_bf16_f32 : FVec Ideal ⟨2, ![2048, 128]⟩ .bf16)
      (truncf .bf16 w bitsLt_bf16_f32 : FVec Ideal ⟨2, ![128, 128]⟩ .bf16) p q
  have hb : broadcastTo S2048x128 (shapeCast S1x128 b shapeCasts_S1x128_S1x128) broadcasts_S1x128_S2048x128 (ix2 p q)
      = b (ix2 (0 : Fin 1) q) := by
    rw [shapeCast_self]
    exact broadcastTo_1b_ab_apply b broadcasts_S1x128_S2048x128 p q
  unfold k0_pay1 Cert.Spec.kernelEntry Cert.Spec.leaky
  show Scalar.select (FloatOps.cmpf (F := Ideal) .oge
      ((matmul _ none _ _ _ (ix2 p q) + matmul _ none _ _ _ (ix2 p q)) + broadcastTo _ _ _ (ix2 p q)) _)
      ((matmul _ none _ _ _ (ix2 p q) + matmul _ none _ _ _ (ix2 p q)) + broadcastTo _ _ _ (ix2 p q))
      (_ * ((matmul _ none _ _ _ (ix2 p q) + matmul _ none _ _ _ (ix2 p q)) + broadcastTo _ _ _ (ix2 p q))) = _
  rw [hm x0 w1, hm x1 w2, hb]
  rfl

end Cert.KernelIdeal.Hand

end
-- ==== Proof.KRun.lean ====
/-
  The idealized kernel's run with every staging buffer's contents named.

  The grid has 49 points; point t stages rows 2048·t … of the two row arrays. The last block overhangs the arrays
  (48·2048 = 98304, 1696 rows remain), so a staging buffer holds the block's rows inside the array and, below
  them, words nothing names. The body's stored block is a function of its inputs row by row, so its rows inside
  the array do not depend on those words: after the body the output's buffer holds, on the rows that are written
  back, the stored value of the two input blocks filled out with zeros.
-/
import proofs.«121737_j32229434589221_1_alg».proof.Proof.Gen.KernelIdeal.Frame
import proofs.«121737_j32229434589221_1_alg».proof.Proof.KernelIdealBody
import proofs.«121737_j32229434589221_1_alg».proof.Proof.KPayload
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks -/

/-- The zero filler for the rows below the array's end. -/
def zeros : S2048x128.Idx → Elt Ideal .f32 := fun _ => (0 : EReal)

/-- The first row array's block at point t, filled out with zeros. -/
def rows0 (c : Dev nD) (t : Fin cfg0.N) : S2048x128.Idx → Elt Ideal .f32 :=
  win0_0.fill (grid0.coords t) zeros (iblk m c 0 t)
/-- The second row array's likewise. -/
def rows1 (c : Dev nD) (t : Fin cfg0.N) : S2048x128.Idx → Elt Ideal .f32 :=
  win0_1.fill (grid0.coords t) zeros (iblk m c 1 t)
/-- What the body stores at point t. -/
def stored (c : Dev nD) (t : Fin cfg0.N) : S2048x128.Idx → Elt Ideal .f32 :=
  k0_pay1 (F := Ideal) (rows0 m c t) (rows1 m c t) (iblk m c 2 t) (iblk m c 3 t) (iblk m c 4 t)

/-- The proof data: the arrays as the region finds them; after the body the two row buffers at their blocks
    filled out with zeros, the three resident buffers at their blocks, the output's at the stored value. -/
def dats (_ : Fin 1) (c : Dev nD) : Dat τ (Elt Ideal) Unit ℕ (UR sig nD τ) ℕ cfg0 c where
  A w := V m c (Pipeline.arrRef spec0 w)
  after w t := match w with
    | ⟨0, _⟩ => rows0 m c t
    | ⟨1, _⟩ => rows1 m c t
    | ⟨2, _⟩ => iblk m c 2 t
    | ⟨3, _⟩ => iblk m c 3 t
    | ⟨4, _⟩ => iblk m c 4 t
    | ⟨5, _⟩ => stored m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = rows0 m c t := by dsimp only [dats]
theorem after0_1 (c : Dev nD) (t : Fin cfg0.N) : (dats m 0 c).after 1 t = rows1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = stored m c t := by dsimp only [dats]

/-- A row buffer just fetched holds its block on the rows inside the array and `d` below them. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- The resident buffers hold their blocks at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The stored rows inside the array do not depend on what lies below them -/

/-- On an index the transfer moves, a filled block reads its block whatever the filler. -/
theorem fill_irrel {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- Every column of a row inside the array is moved. -/
theorem moved_row (i : grid0.Coords) (p : Fin 2048) (hp : p.val < win0_5.xsize i 0) (cc : Fin 128) :
    win0_0.moved i (ix2 p cc) = true ∧ win0_1.moved i (ix2 p cc) = true := by
  refine ⟨(win0_0.moved_iff i _).mpr fun a => ?_, (win0_1.moved_iff i _).mpr fun a => ?_⟩
  · match a with
    | ⟨0, _⟩ => exact hp
    | ⟨1, _⟩ => exact cc.isLt
  · match a with
    | ⟨0, _⟩ => exact hp
    | ⟨1, _⟩ => exact cc.isLt

/-- The stored value's rows that are written back are those of the blocks filled out with zeros. -/
theorem cut_stored (i : grid0.Coords) (d0 d1 : S2048x128.Idx → Elt Ideal .f32)
    (g0 : (win0_0.xblock i).Idx → Elt Ideal .f32) (g1 : (win0_1.xblock i).Idx → Elt Ideal .f32)
    (w1 w2 : Vec Ideal S128x128 .f32) (b : Vec Ideal S1x128 .f32) :
    win0_5.cut i (k0_pay1 (F := Ideal) (win0_0.fill i d0 g0) (win0_1.fill i d1 g1) w1 w2 b)
      = win0_5.cut i (k0_pay1 (F := Ideal) (win0_0.fill i zeros g0) (win0_1.fill i zeros g1) w1 w2 b) := by
  funext j
  obtain ⟨p, q, hpq⟩ : ∃ (p : Fin 2048) (q : Fin 128), (win0_5.xinj i j : S2048x128.Idx) = ix2 p q :=
    ⟨(win0_5.xinj i j : S2048x128.Idx) 0, (win0_5.xinj i j : S2048x128.Idx) 1, eq_ix2 _⟩
  have e : (j 0).val = p.val := congrArg (fun z : S2048x128.Idx => (z 0).val) hpq
  have hp : p.val < win0_5.xsize i 0 := e ▸ (j 0).isLt
  show k0_pay1 (F := Ideal) _ _ w1 w2 b (win0_5.xinj i j : S2048x128.Idx) = k0_pay1 (F := Ideal) _ _ w1 w2 b (win0_5.xinj i j : S2048x128.Idx)
  rw [hpq, payload_apply, payload_apply]
  unfold Cert.Spec.kernelEntry Cert.Spec.rowDot
  have e0 : ∀ cc : Fin 128, win0_0.fill i d0 g0 (ix2 p cc) = win0_0.fill i zeros g0 (ix2 p cc) := fun cc =>
    fill_irrel win0_0 i d0 zeros g0 _ (moved_row i p hp cc).1
  have e1 : ∀ cc : Fin 128, win0_1.fill i d1 g1 (ix2 p cc) = win0_1.fill i zeros g1 (ix2 p cc) := fun cc =>
    fill_irrel win0_1 i d1 zeros g1 _ (moved_row i p hp cc).2
  simp only [e0, e1]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (sound_kernel (F := Ideal) c Set.univ (grid0.coords t) _ _ _ _ _ _ _ _ _ _ _ _
    (win0_0.fill (grid0.coords t) d0 (iblk m c 0 t)) (win0_1.fill (grid0.coords t) d1 (iblk m c 1 t))
    (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (rows0 m c t) = iblk m c 0 t from win0_0.cut_fill _ _ _]
    iexact H0
  isplitl [H1]
  · iexists d1
    rw [show win0_1.cut (grid0.coords t) (rows1 m c t) = iblk m c 1 t from win0_1.cut_fill _ _ _]
    iexact H1
  isplitl [H2]; · iexact H2
  isplitl [H3]; · iexact H3
  isplitl [H4]; · iexact H4
  iexists k0_pay1 (F := Ideal) (win0_0.fill (grid0.coords t) d0 (iblk m c 0 t)) (win0_1.fill (grid0.coords t) d1 (iblk m c 1 t))
    (iblk m c 2 t) (iblk m c 3 t) (iblk m c 4 t)
  have hfill : win0_5.fill (grid0.coords t)
      (k0_pay1 (F := Ideal) (win0_0.fill (grid0.coords t) d0 (iblk m c 0 t)) (win0_1.fill (grid0.coords t) d1 (iblk m c 1 t))
        (iblk m c 2 t) (iblk m c 3 t) (iblk m c 4 t))
      (win0_5.cut (grid0.coords t) (stored m c t))
      = k0_pay1 (F := Ideal) (win0_0.fill (grid0.coords t) d0 (iblk m c 0 t)) (win0_1.fill (grid0.coords t) d1 (iblk m c 1 t))
        (iblk m c 2 t) (iblk m c 3 t) (iblk m c 4 t) :=
    win0_5.fill_congr_cut (grid0.coords t) (by
      unfold stored rows0 rows1
      exact cut_stored (grid0.coords t) d0 d1 (iblk m c 0 t) (iblk m c 1 t) (iblk m c 2 t) (iblk m c 3 t) (iblk m c 4 t))
  rw [hfill]
  iexact H5

theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, with every array of the pipeline at what the write-backs
    leave and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized kernel's frame: the eight arguments end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.RefRun.lean ====
/-
  The reference program as one straight line of host operations, and its run.

  The program's entry function is printed in two consecutive windows and calls three outlined functions (two
  `where`s on a degree vector, and the leaky rectifier, which itself ends in a `where`). Inlining the calls gives a
  list of 99 operations; the entry function is shown equal to that list run in order, and therefore every weakly fair
  execution terminates with each buffer at the fold of the operations' results over the contents at launch.
-/
import proofs.«121737_j32229434589221_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch

A stretch ends where a call begins or ends, and at the boundary between the two windows. -/

/-- The first twelve operations: the two degree sums, the first comparison with zero and the scalar one. -/
abbrev opsA0 : List (HloOp τ sig (Elt F)) :=
  [ StableHlo.nullary main_cst (constant S_ .f32 0x00000000#32),
    StableHlo.unary main_cst main_v0 (broadcastInDim S100000 ![] bcast_S_S100000 : (⟨S_, .f32⟩ : BufTy).Contents (Elt F) → (⟨S100000, .f32⟩ : BufTy).Contents (Elt F)),
    StableHlo.unary main_arg0 main_v1 (broadcastInDim S800000x1 ![0] bcast_S800000_S800000x1_0 : (⟨S800000, .i32⟩ : BufTy).Contents (Elt F) → (⟨S800000x1, .i32⟩ : BufTy).Contents (Elt F)),
    StableHlo.ternary main_v0 main_v1 main_arg2 main_v2 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_0 (constant S_ .f32 0x00000000#32),
    StableHlo.unary main_cst_0 main_v3 (broadcastInDim S100000 ![] bcast_S_S100000 : (⟨S_, .f32⟩ : BufTy).Contents (Elt F) → (⟨S100000, .f32⟩ : BufTy).Contents (Elt F)),
    StableHlo.unary main_arg1 main_v4 (broadcastInDim S800000x1 ![0] bcast_S800000_S800000x1_0 : (⟨S800000, .i32⟩ : BufTy).Contents (Elt F) → (⟨S800000x1, .i32⟩ : BufTy).Contents (Elt F)),
    StableHlo.ternary main_v3 main_v4 main_arg2 main_v5 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_1 (constant S_ .f32 0x00000000#32),
    StableHlo.unary main_cst_1 main_v6 (broadcastInDim S100000 ![] bcast_S_S100000 : (⟨S_, .f32⟩ : BufTy).Contents (Elt F) → (⟨S100000, .f32⟩ : BufTy).Contents (Elt F)),
    StableHlo.binary main_v2 main_v6 main_v7 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32) ]

/-- The first `where`: the scalar one converted, broadcast, and selected where the row degree is not positive. -/
abbrev opsA1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v7 : StableHlo.TRef sig ⟨S100000, .i1⟩) (.of main_v2 : StableHlo.TRef sig ⟨S100000, .f32⟩) (.of main_call0_v1 : StableHlo.TRef sig ⟨S100000, .f32⟩) (.of main_v8 : StableHlo.TRef sig ⟨S100000, .f32⟩) select ]

/-- The second comparison with zero and its scalar one. -/
abbrev opsA2 : List (HloOp τ sig (Elt F)) :=
  [ StableHlo.nullary main_cst_3 (constant S_ .f32 0x00000000#32),
    StableHlo.unary main_cst_3 main_v9 (broadcastInDim S100000 ![] bcast_S_S100000 : (⟨S_, .f32⟩ : BufTy).Contents (Elt F) → (⟨S100000, .f32⟩ : BufTy).Contents (Elt F)),
    StableHlo.binary main_v5 main_v9 main_v10 (cmpf .ogt : (⟨S100000, .f32⟩ : BufTy).Contents (Elt F) → (⟨S100000, .f32⟩ : BufTy).Contents (Elt F) → (⟨S100000, .i1⟩ : BufTy).Contents (Elt F)),
    StableHlo.nullary main_cst_4 (constant S_ .f32 0x3F800000#32) ]

/-- The second `where`, on the column degree. -/
abbrev opsA3 : List (HloOp τ sig (Elt F)) :=
  [ StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v10 : StableHlo.TRef sig ⟨S100000, .i1⟩) (.of main_v5 : StableHlo.TRef sig ⟨S100000, .f32⟩) (.of main_call1_v1 : StableHlo.TRef sig ⟨S100000, .f32⟩) (.of main_v11 : StableHlo.TRef sig ⟨S100000, .f32⟩) select ]

/-- The two inverse square roots gathered along the edges, the edge weights, the self term, and the first neighbourhood sum. -/
abbrev opsA4 : List (HloOp τ sig (Elt F)) :=
  [ StableHlo.unary main_v8 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_arg0 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v15 (broadcastInDim S800000 ![] bcast_S_S800000 : (⟨S_, .i32⟩ : BufTy).Contents (Elt F) → (⟨S800000, .i32⟩ : BufTy).Contents (Elt F)),
    StableHlo.binary main_arg0 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_arg0 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_v12 main_v18 main_v19 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_arg2 main_v19 main_v20 (mulf : (⟨S800000, .f32⟩ : BufTy).Contents (Elt F) → (⟨S800000, .f32⟩ : BufTy).Contents (Elt F) → (⟨S800000, .f32⟩ : BufTy).Contents (Elt F)),
    StableHlo.unary main_v11 main_v21 (Host.rsqrt : (⟨S100000, .f32⟩ : BufTy).Contents (Elt F) → (⟨S100000, .f32⟩ : BufTy).Contents (Elt F)),
    StableHlo.nullary main_c_6 (constantI S_ 32 0#32),
    StableHlo.unary main_c_6 main_v22 (broadcastInDim S800000 ![] bcast_S_S800000 : (⟨S_, .i32⟩ : BufTy).Contents (Elt F) → (⟨S800000, .i32⟩ : BufTy).Contents (Elt F)),
    StableHlo.binary main_arg1 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 100000#32),
    StableHlo.unary main_c_7 main_v24 (broadcastInDim S800000 ![] bcast_S_S800000 : (⟨S_, .i32⟩ : BufTy).Contents (Elt F) → (⟨S800000, .i32⟩ : BufTy).Contents (Elt F)),
    StableHlo.binary main_arg1 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_arg1 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v21 main_v27 main_v28 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_v20 main_v28 main_v29 (mulf : (⟨S800000, .f32⟩ : BufTy).Contents (Elt F) → (⟨S800000, .f32⟩ : BufTy).Contents (Elt F) → (⟨S800000, .f32⟩ : BufTy).Contents (Elt F)),
    StableHlo.binary main_arg3 main_arg4 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v32 main_v33 (addf : (⟨S100000x128, .f32⟩ : BufTy).Contents (Elt F) → (⟨S100000x128, .f32⟩ : BufTy).Contents (Elt F) → (⟨S100000x128, .f32⟩ : BufTy).Contents (Elt F)),
    StableHlo.unary main_v29 main_v34 (broadcastInDim S800000x1 ![0] bcast_S800000_S800000x1_0 : (⟨S800000, .f32⟩ : BufTy).Contents (Elt F) → (⟨S800000x1, .f32⟩ : BufTy).Contents (Elt F)),
    StableHlo.nullary main_c_8 (constantI S_ 32 0#32),
    StableHlo.unary main_c_8 main_v35 (broadcastInDim S800000 ![] bcast_S_S800000 : (⟨S_, .i32⟩ : BufTy).Contents (Elt F) → (⟨S800000, .i32⟩ : BufTy).Contents (Elt F)),
    StableHlo.binary main_arg1 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 100000#32),
    StableHlo.unary main_c_9 main_v37 (broadcastInDim S800000 ![] bcast_S_S800000 : (⟨S_, .i32⟩ : BufTy).Contents (Elt F) → (⟨S800000, .i32⟩ : BufTy).Contents (Elt F)),
    StableHlo.binary main_arg1 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_arg1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_arg3 main_v40 main_v41 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v34 main_v42 (broadcastInDim S800000x128 ![0, 1] bcast_S800000x1_S800000x128_0_1 : (⟨S800000x1, .f32⟩ : BufTy).Contents (Elt F) → (⟨S800000x128, .f32⟩ : BufTy).Contents (Elt F)),
    StableHlo.binary main_v42 main_v41 main_v43 (mulf : (⟨S800000x128, .f32⟩ : BufTy).Contents (Elt F) → (⟨S800000x128, .f32⟩ : BufTy).Contents (Elt F) → (⟨S800000x128, .f32⟩ : BufTy).Contents (Elt F)),
    StableHlo.nullary main_cst_10 (constant S_ .f32 0x00000000#32),
    StableHlo.unary main_cst_10 main_v44 (broadcastInDim S100000x128 ![] bcast_S_S100000x128 : (⟨S_, .f32⟩ : BufTy).Contents (Elt F) → (⟨S100000x128, .f32⟩ : BufTy).Contents (Elt F)),
    StableHlo.unary main_arg0 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]

/-- The neighbour term, the second neighbourhood sum (of the squared features), the interaction term, and the sum of the three terms. -/
abbrev opsB0 : List (HloOp τ sig (Elt F)) :=
  [ StableHlo.binary main_v46 main_arg4 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.binary main_arg3 main_arg3 main_v51 (mulf : (⟨S100000x128, .f32⟩ : BufTy).Contents (Elt F) → (⟨S100000x128, .f32⟩ : BufTy).Contents (Elt F) → (⟨S100000x128, .f32⟩ : BufTy).Contents (Elt F)),
    StableHlo.unary main_v29 main_v52 (broadcastInDim S800000x1 ![0] bcast_S800000_S800000x1_0 : (⟨S800000, .f32⟩ : BufTy).Contents (Elt F) → (⟨S800000x1, .f32⟩ : BufTy).Contents (Elt F)),
    StableHlo.nullary main_c_11 (constantI S_ 32 0#32),
    StableHlo.unary main_c_11 main_v53 (broadcastInDim S800000 ![] bcast_S_S800000 : (⟨S_, .i32⟩ : BufTy).Contents (Elt F) → (⟨S800000, .i32⟩ : BufTy).Contents (Elt F)),
    StableHlo.binary main_arg1 main_v53 main_v54 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 100000#32),
    StableHlo.unary main_c_12 main_v55 (broadcastInDim S800000 ![] bcast_S_S800000 : (⟨S_, .i32⟩ : BufTy).Contents (Elt F) → (⟨S800000, .i32⟩ : BufTy).Contents (Elt F)),
    StableHlo.binary main_arg1 main_v55 main_v56 (addi : (⟨S800000, .i32⟩ : BufTy).Contents (Elt F) → (⟨S800000, .i32⟩ : BufTy).Contents (Elt F) → (⟨S800000, .i32⟩ : BufTy).Contents (Elt F)),
    StableHlo.ternary main_v54 main_v56 main_arg1 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v57 main_v58 (broadcastInDim S800000x1 ![0] bcast_S800000_S800000x1_0 : (⟨S800000, .i32⟩ : BufTy).Contents (Elt F) → (⟨S800000x1, .i32⟩ : BufTy).Contents (Elt F)),
    StableHlo.binary main_v51 main_v58 main_v59 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v52 main_v60 (broadcastInDim S800000x128 ![0, 1] bcast_S800000x1_S800000x128_0_1 : (⟨S800000x1, .f32⟩ : BufTy).Contents (Elt F) → (⟨S800000x128, .f32⟩ : BufTy).Contents (Elt F)),
    StableHlo.binary main_v60 main_v59 main_v61 (mulf : (⟨S800000x128, .f32⟩ : BufTy).Contents (Elt F) → (⟨S800000x128, .f32⟩ : BufTy).Contents (Elt F) → (⟨S800000x128, .f32⟩ : BufTy).Contents (Elt F)),
    StableHlo.nullary main_cst_13 (constant S_ .f32 0x00000000#32),
    StableHlo.unary main_cst_13 main_v62 (broadcastInDim S100000x128 ![] bcast_S_S100000x128 : (⟨S_, .f32⟩ : BufTy).Contents (Elt F) → (⟨S100000x128, .f32⟩ : BufTy).Contents (Elt F)),
    StableHlo.unary main_arg0 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v64 main_arg6 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.binary main_v33 main_v50 main_v69 (addf : (⟨S100000x128, .f32⟩ : BufTy).Contents (Elt F) → (⟨S100000x128, .f32⟩ : BufTy).Contents (Elt F) → (⟨S100000x128, .f32⟩ : BufTy).Contents (Elt F)),
    StableHlo.binary main_v69 main_v68 main_v70 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3E4CCCCD#32) ]

/-- The leaky rectifier: comparison with zero, the slope broadcast and multiplied, and the final select. -/
abbrev opsB1 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x128, .f32⟩) (broadcastInDim S100000x128 ![] bcast_S_S100000x128),
    StableHlo.TRef.binary (.of main_v70 : StableHlo.TRef sig ⟨S100000x128, .f32⟩) (.of main_call2_v0 : StableHlo.TRef sig ⟨S100000x128, .f32⟩) (.of main_call2_v1 : StableHlo.TRef sig ⟨S100000x128, .i1⟩) (cmpf .oge),
    StableHlo.TRef.unary (.of main_cst_14 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x128, .f32⟩) (broadcastInDim S100000x128 ![] bcast_S_S100000x128),
    StableHlo.TRef.binary (.of main_call2_v3 : StableHlo.TRef sig ⟨S100000x128, .f32⟩) (.of main_v70 : StableHlo.TRef sig ⟨S100000x128, .f32⟩) (.of main_call2_v4 : StableHlo.TRef sig ⟨S100000x128, .f32⟩) mulf,
    StableHlo.TRef.ternary (.of main_call2_v1 : StableHlo.TRef sig ⟨S100000x128, .i1⟩) (.of main_v70 : StableHlo.TRef sig ⟨S100000x128, .f32⟩) (.of main_call2_v4 : StableHlo.TRef sig ⟨S100000x128, .f32⟩) (.of main_v71 : StableHlo.TRef sig ⟨S100000x128, .f32⟩) select ]

/-- The entry function's 99 operations in order, the calls inlined. -/
abbrev ops : List (HloOp τ sig (Elt F)) :=
  [ StableHlo.nullary main_cst (constant S_ .f32 0x00000000#32),
    StableHlo.unary main_cst main_v0 (broadcastInDim S100000 ![] bcast_S_S100000 : (⟨S_, .f32⟩ : BufTy).Contents (Elt F) → (⟨S100000, .f32⟩ : BufTy).Contents (Elt F)),
    StableHlo.unary main_arg0 main_v1 (broadcastInDim S800000x1 ![0] bcast_S800000_S800000x1_0 : (⟨S800000, .i32⟩ : BufTy).Contents (Elt F) → (⟨S800000x1, .i32⟩ : BufTy).Contents (Elt F)),
    StableHlo.ternary main_v0 main_v1 main_arg2 main_v2 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_0 (constant S_ .f32 0x00000000#32),
    StableHlo.unary main_cst_0 main_v3 (broadcastInDim S100000 ![] bcast_S_S100000 : (⟨S_, .f32⟩ : BufTy).Contents (Elt F) → (⟨S100000, .f32⟩ : BufTy).Contents (Elt F)),
    StableHlo.unary main_arg1 main_v4 (broadcastInDim S800000x1 ![0] bcast_S800000_S800000x1_0 : (⟨S800000, .i32⟩ : BufTy).Contents (Elt F) → (⟨S800000x1, .i32⟩ : BufTy).Contents (Elt F)),
    StableHlo.ternary main_v3 main_v4 main_arg2 main_v5 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_1 (constant S_ .f32 0x00000000#32),
    StableHlo.unary main_cst_1 main_v6 (broadcastInDim S100000 ![] bcast_S_S100000 : (⟨S_, .f32⟩ : BufTy).Contents (Elt F) → (⟨S100000, .f32⟩ : BufTy).Contents (Elt F)),
    StableHlo.binary main_v2 main_v6 main_v7 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v7 : StableHlo.TRef sig ⟨S100000, .i1⟩) (.of main_v2 : StableHlo.TRef sig ⟨S100000, .f32⟩) (.of main_call0_v1 : StableHlo.TRef sig ⟨S100000, .f32⟩) (.of main_v8 : StableHlo.TRef sig ⟨S100000, .f32⟩) select,
    StableHlo.nullary main_cst_3 (constant S_ .f32 0x00000000#32),
    StableHlo.unary main_cst_3 main_v9 (broadcastInDim S100000 ![] bcast_S_S100000 : (⟨S_, .f32⟩ : BufTy).Contents (Elt F) → (⟨S100000, .f32⟩ : BufTy).Contents (Elt F)),
    StableHlo.binary main_v5 main_v9 main_v10 (cmpf .ogt : (⟨S100000, .f32⟩ : BufTy).Contents (Elt F) → (⟨S100000, .f32⟩ : BufTy).Contents (Elt F) → (⟨S100000, .i1⟩ : BufTy).Contents (Elt F)),
    StableHlo.nullary main_cst_4 (constant S_ .f32 0x3F800000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v10 : StableHlo.TRef sig ⟨S100000, .i1⟩) (.of main_v5 : StableHlo.TRef sig ⟨S100000, .f32⟩) (.of main_call1_v1 : StableHlo.TRef sig ⟨S100000, .f32⟩) (.of main_v11 : StableHlo.TRef sig ⟨S100000, .f32⟩) select,
    StableHlo.unary main_v8 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_arg0 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v15 (broadcastInDim S800000 ![] bcast_S_S800000 : (⟨S_, .i32⟩ : BufTy).Contents (Elt F) → (⟨S800000, .i32⟩ : BufTy).Contents (Elt F)),
    StableHlo.binary main_arg0 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_arg0 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_v12 main_v18 main_v19 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_arg2 main_v19 main_v20 (mulf : (⟨S800000, .f32⟩ : BufTy).Contents (Elt F) → (⟨S800000, .f32⟩ : BufTy).Contents (Elt F) → (⟨S800000, .f32⟩ : BufTy).Contents (Elt F)),
    StableHlo.unary main_v11 main_v21 (Host.rsqrt : (⟨S100000, .f32⟩ : BufTy).Contents (Elt F) → (⟨S100000, .f32⟩ : BufTy).Contents (Elt F)),
    StableHlo.nullary main_c_6 (constantI S_ 32 0#32),
    StableHlo.unary main_c_6 main_v22 (broadcastInDim S800000 ![] bcast_S_S800000 : (⟨S_, .i32⟩ : BufTy).Contents (Elt F) → (⟨S800000, .i32⟩ : BufTy).Contents (Elt F)),
    StableHlo.binary main_arg1 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 100000#32),
    StableHlo.unary main_c_7 main_v24 (broadcastInDim S800000 ![] bcast_S_S800000 : (⟨S_, .i32⟩ : BufTy).Contents (Elt F) → (⟨S800000, .i32⟩ : BufTy).Contents (Elt F)),
    StableHlo.binary main_arg1 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_arg1 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v21 main_v27 main_v28 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_v20 main_v28 main_v29 (mulf : (⟨S800000, .f32⟩ : BufTy).Contents (Elt F) → (⟨S800000, .f32⟩ : BufTy).Contents (Elt F) → (⟨S800000, .f32⟩ : BufTy).Contents (Elt F)),
    StableHlo.binary main_arg3 main_arg4 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v32 main_v33 (addf : (⟨S100000x128, .f32⟩ : BufTy).Contents (Elt F) → (⟨S100000x128, .f32⟩ : BufTy).Contents (Elt F) → (⟨S100000x128, .f32⟩ : BufTy).Contents (Elt F)),
    StableHlo.unary main_v29 main_v34 (broadcastInDim S800000x1 ![0] bcast_S800000_S800000x1_0 : (⟨S800000, .f32⟩ : BufTy).Contents (Elt F) → (⟨S800000x1, .f32⟩ : BufTy).Contents (Elt F)),
    StableHlo.nullary main_c_8 (constantI S_ 32 0#32),
    StableHlo.unary main_c_8 main_v35 (broadcastInDim S800000 ![] bcast_S_S800000 : (⟨S_, .i32⟩ : BufTy).Contents (Elt F) → (⟨S800000, .i32⟩ : BufTy).Contents (Elt F)),
    StableHlo.binary main_arg1 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 100000#32),
    StableHlo.unary main_c_9 main_v37 (broadcastInDim S800000 ![] bcast_S_S800000 : (⟨S_, .i32⟩ : BufTy).Contents (Elt F) → (⟨S800000, .i32⟩ : BufTy).Contents (Elt F)),
    StableHlo.binary main_arg1 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_arg1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_arg3 main_v40 main_v41 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v34 main_v42 (broadcastInDim S800000x128 ![0, 1] bcast_S800000x1_S800000x128_0_1 : (⟨S800000x1, .f32⟩ : BufTy).Contents (Elt F) → (⟨S800000x128, .f32⟩ : BufTy).Contents (Elt F)),
    StableHlo.binary main_v42 main_v41 main_v43 (mulf : (⟨S800000x128, .f32⟩ : BufTy).Contents (Elt F) → (⟨S800000x128, .f32⟩ : BufTy).Contents (Elt F) → (⟨S800000x128, .f32⟩ : BufTy).Contents (Elt F)),
    StableHlo.nullary main_cst_10 (constant S_ .f32 0x00000000#32),
    StableHlo.unary main_cst_10 main_v44 (broadcastInDim S100000x128 ![] bcast_S_S100000x128 : (⟨S_, .f32⟩ : BufTy).Contents (Elt F) → (⟨S100000x128, .f32⟩ : BufTy).Contents (Elt F)),
    StableHlo.unary main_arg0 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v46 main_arg4 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.binary main_arg3 main_arg3 main_v51 (mulf : (⟨S100000x128, .f32⟩ : BufTy).Contents (Elt F) → (⟨S100000x128, .f32⟩ : BufTy).Contents (Elt F) → (⟨S100000x128, .f32⟩ : BufTy).Contents (Elt F)),
    StableHlo.unary main_v29 main_v52 (broadcastInDim S800000x1 ![0] bcast_S800000_S800000x1_0 : (⟨S800000, .f32⟩ : BufTy).Contents (Elt F) → (⟨S800000x1, .f32⟩ : BufTy).Contents (Elt F)),
    StableHlo.nullary main_c_11 (constantI S_ 32 0#32),
    StableHlo.unary main_c_11 main_v53 (broadcastInDim S800000 ![] bcast_S_S800000 : (⟨S_, .i32⟩ : BufTy).Contents (Elt F) → (⟨S800000, .i32⟩ : BufTy).Contents (Elt F)),
    StableHlo.binary main_arg1 main_v53 main_v54 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 100000#32),
    StableHlo.unary main_c_12 main_v55 (broadcastInDim S800000 ![] bcast_S_S800000 : (⟨S_, .i32⟩ : BufTy).Contents (Elt F) → (⟨S800000, .i32⟩ : BufTy).Contents (Elt F)),
    StableHlo.binary main_arg1 main_v55 main_v56 (addi : (⟨S800000, .i32⟩ : BufTy).Contents (Elt F) → (⟨S800000, .i32⟩ : BufTy).Contents (Elt F) → (⟨S800000, .i32⟩ : BufTy).Contents (Elt F)),
    StableHlo.ternary main_v54 main_v56 main_arg1 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v57 main_v58 (broadcastInDim S800000x1 ![0] bcast_S800000_S800000x1_0 : (⟨S800000, .i32⟩ : BufTy).Contents (Elt F) → (⟨S800000x1, .i32⟩ : BufTy).Contents (Elt F)),
    StableHlo.binary main_v51 main_v58 main_v59 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v52 main_v60 (broadcastInDim S800000x128 ![0, 1] bcast_S800000x1_S800000x128_0_1 : (⟨S800000x1, .f32⟩ : BufTy).Contents (Elt F) → (⟨S800000x128, .f32⟩ : BufTy).Contents (Elt F)),
    StableHlo.binary main_v60 main_v59 main_v61 (mulf : (⟨S800000x128, .f32⟩ : BufTy).Contents (Elt F) → (⟨S800000x128, .f32⟩ : BufTy).Contents (Elt F) → (⟨S800000x128, .f32⟩ : BufTy).Contents (Elt F)),
    StableHlo.nullary main_cst_13 (constant S_ .f32 0x00000000#32),
    StableHlo.unary main_cst_13 main_v62 (broadcastInDim S100000x128 ![] bcast_S_S100000x128 : (⟨S_, .f32⟩ : BufTy).Contents (Elt F) → (⟨S100000x128, .f32⟩ : BufTy).Contents (Elt F)),
    StableHlo.unary main_arg0 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v64 main_arg6 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.binary main_v33 main_v50 main_v69 (addf : (⟨S100000x128, .f32⟩ : BufTy).Contents (Elt F) → (⟨S100000x128, .f32⟩ : BufTy).Contents (Elt F) → (⟨S100000x128, .f32⟩ : BufTy).Contents (Elt F)),
    StableHlo.binary main_v69 main_v68 main_v70 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3E4CCCCD#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x128, .f32⟩) (broadcastInDim S100000x128 ![] bcast_S_S100000x128),
    StableHlo.TRef.binary (.of main_v70 : StableHlo.TRef sig ⟨S100000x128, .f32⟩) (.of main_call2_v0 : StableHlo.TRef sig ⟨S100000x128, .f32⟩) (.of main_call2_v1 : StableHlo.TRef sig ⟨S100000x128, .i1⟩) (cmpf .oge),
    StableHlo.TRef.unary (.of main_cst_14 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x128, .f32⟩) (broadcastInDim S100000x128 ![] bcast_S_S100000x128),
    StableHlo.TRef.binary (.of main_call2_v3 : StableHlo.TRef sig ⟨S100000x128, .f32⟩) (.of main_v70 : StableHlo.TRef sig ⟨S100000x128, .f32⟩) (.of main_call2_v4 : StableHlo.TRef sig ⟨S100000x128, .f32⟩) mulf,
    StableHlo.TRef.ternary (.of main_call2_v1 : StableHlo.TRef sig ⟨S100000x128, .i1⟩) (.of main_v70 : StableHlo.TRef sig ⟨S100000x128, .f32⟩) (.of main_call2_v4 : StableHlo.TRef sig ⟨S100000x128, .f32⟩) (.of main_v71 : StableHlo.TRef sig ⟨S100000x128, .f32⟩) select ]

/-- The whole list is the stretches one after the other. -/
theorem ops_eq : (ops : List (HloOp τ sig (Elt F)))
    = opsA0 ++ (opsA1 ++ (opsA2 ++ (opsA3 ++ (opsA4 ++ (opsB0 ++ (opsB1 ++ [])))))) := rfl

/-! ## The entry function is the list run in order -/

/-- A stretch followed by a chain that is itself a line of operations is the concatenated line. -/
theorem chain_seq_cons {Λ : Labels} (l l' : List (HloOp τ sig (Elt F)))
    (qs : List (Prog (TpuEff nD τ sig (Elt F) Λ .tc) PUnit)) (h : Pipeline.chain qs = seq l') :
    Pipeline.chain (seq l :: qs) = seq (l ++ l') := by
  rw [Pipeline.chain_cons, h, seq_append]

/-- The first window: its stretches in order, the last in tail position. Both sides unfold to the same sequence
    of steps, a called function's body against the stretch of its operations. -/
theorem main_part0_chain (c : Dev nD) : main_part0 (F := F) c = (Pipeline.chainK
    [ seq opsA0, seq opsA1, seq opsA2, seq opsA3 ] (seq opsA4)
      : Prog (TpuEff nD τ sig (Elt F) (Pipeline.Sig Λ₀ (Fin 0) fun p => (pcfgs (F := F) p).Adm) .tc) PUnit) := by
  chain_rfl

/-- The second window: its own operations, then the rectifier's. -/
theorem main_part1_chain (c : Dev nD) : main_part1 (F := F) c = (Pipeline.chain
    [ seq opsB0, seq opsB1 ]
      : Prog (TpuEff nD τ sig (Elt F) (Pipeline.Sig Λ₀ (Fin 0) fun p => (pcfgs (F := F) p).Adm) .tc) PUnit) := by
  chain_rfl

/-- The entry function runs its two windows in order; each is the chain of its stretches, and a chain of
    stretches is the concatenated line. -/
theorem main_eq (c : Dev nD) : main (F := F) c = seq ops := by
  show (main_part0 (F := F) c >>= fun _ => main_part1 (F := F) c) = _
  rw [main_part1_chain, main_part0_chain, Pipeline.chainK_bind_chain, ops_eq]
  exact chain_seq_cons _ _ _ (chain_seq_cons _ _ _ (chain_seq_cons _ _ _ (chain_seq_cons _ _ _
    (chain_seq_cons _ _ _ (chain_seq_cons _ _ _ (chain_seq_cons _ _ _ rfl))))))

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's main memory only. -/
theorem ops_sub : (ops : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- At the compiled mesh, for any float values, from any memory with zero counters: every weakly fair execution of
    the entry function terminates, and every final state has each buffer at the fold of the operations' results
    over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibTypedRefCasts.lean ====
/-
  A tensor value stored into a buffer and read back is the value.

  A typed reference names a buffer together with the equation "the buffer's type is the value's type". Storing a value
  transports it along that equation and reading transports back, so reading what was stored is the identity — for any
  buffer, any type and any element interpretation, by taking the equation to be reflexivity. Rewriting with this
  removes the transports from the composed result of a line of operations on typed references before anything is
  compared definitionally.
-/
import Idealize.ShloMosaic.Lib.StableHlo

namespace Cert.LibTypedRefCasts

open Idealize.ShloMosaic Idealize.ShloMosaic.StableHlo

variable {sig : RefSig} {Val : EltTy → Type} {T : BufTy}

/-- Reading a value back through the buffer type it was stored at gives the value. -/
theorem ofBuf_toBuf (x : TRef sig T) (v : T.Contents Val) : x.ofBuf (x.toBuf v) = v := by
  obtain ⟨r, h1, h2, h3⟩ := x
  subst h1
  rfl

/-- Storing what was read through the buffer type gives it back. -/
theorem toBuf_ofBuf (x : TRef sig T) (w : x.ref.ty.Contents Val) : x.toBuf (x.ofBuf w) = w := by
  obtain ⟨r, h1, h2, h3⟩ := x
  subst h1
  rfl

end Cert.LibTypedRefCasts
-- ==== Proof.RefOut.lean ====
/-
  The reference's result as one function of the node features, the two neighbourhood sums and the weights; and the
  arguments unchanged by the run.

  Everything the program computes after the two neighbourhood sums is three biased matrix products, their sum, and
  the leaky rectifier. `refTail` is that composition; the fold of the program's operations at the result buffer is
  `refTail` of the launch contents of the features and weights and of the fold at the two sums' buffers.
-/
import proofs.«121737_j32229434589221_1_alg».proof.Proof.RefRun
import proofs.«121737_j32229434589221_1_alg».proof.Proof.LibTypedRefCasts

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A matrix product with a [128,128] weight plus the bias row broadcast down the rows. -/
def biasedDot (A : (⟨S100000x128, .f32⟩ : BufTy).Contents (Elt F)) (W : (⟨S128x128, .f32⟩ : BufTy).Contents (Elt F))
    (B : (⟨S128, .f32⟩ : BufTy).Contents (Elt F)) : (⟨S100000x128, .f32⟩ : BufTy).Contents (Elt F) :=
  addf (Host.dotGeneral (F := F) dot_S100000x128_S128x128_S100000x128_1_0_0_1_n_n none A W)
    (broadcastInDim S100000x128 ![0, 1] bcast_S1x128_S100000x128_0_1 (broadcastInDim S1x128 ![1] bcast_S128_S1x128_1 B))

/-- The reference's last operations as one function of x, the two neighbourhood sums and the weights: the self,
    neighbour and interaction terms added, then the leaky rectifier (the value where it is at least zero, the slope
    times the value elsewhere). -/
def refTail (X SX SX2 : (⟨S100000x128, .f32⟩ : BufTy).Contents (Elt F)) (W1 W2 : (⟨S128x128, .f32⟩ : BufTy).Contents (Elt F))
    (B1 B2 : (⟨S128, .f32⟩ : BufTy).Contents (Elt F)) : (⟨S100000x128, .f32⟩ : BufTy).Contents (Elt F) :=
  let h70 : (⟨S100000x128, .f32⟩ : BufTy).Contents (Elt F) :=
    addf (addf (biasedDot X W1 B1) (biasedDot SX W1 B1)) (biasedDot SX2 W2 B2)
  select (cmpf .oge h70 (broadcastInDim S100000x128 ![] bcast_S_S100000x128 (constant (F := F) S_ .f32 0x00000000#32))) h70
    (mulf (broadcastInDim S100000x128 ![] bcast_S_S100000x128 (constant (F := F) S_ .f32 0x3E4CCCCD#32)) h70)

set_option maxRecDepth 16384 in
set_option maxHeartbeats 4000000 in
/-- The fold at the result buffer: each operation's result read at its own buffer, the rest passed over; a value
    stored through a typed reference and read back is the value; what remains is `refTail` by unfolding. -/
theorem out_eq (V : Valuation τ sig (Elt F)) :
    after ops V (main_v71 : DevRef τ sig)
      = refTail (V (main_arg3 : DevRef τ sig)) (after ops V (main_v46 : DevRef τ sig)) (after ops V (main_v64 : DevRef τ sig))
          (V (main_arg4 : DevRef τ sig)) (V (main_arg6 : DevRef τ sig)) (V (main_arg5 : DevRef τ sig)) (V (main_arg7 : DevRef τ sig)) := by
  after_results_simp
  simp only [Cert.LibTypedRefCasts.ofBuf_toBuf]
  unfold refTail biasedDot
  rfl

/-! ## The arguments are never written -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-- The run terminates with the eight arguments as they were at launch. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.Hand

end
-- ==== Proof.KValue.lean ====
/-
  The result array after the idealized kernel's run, as one function of the arrays the region finds.

  Point t writes back rows 2048·t … of the result, 2048 of them except at the last point, which writes the 1696
  rows that remain. The rows written are the stored block's, and entry (p, q) of the stored block at point t is the
  kernel's entry function of row 2048·t + p of the two row arrays, the two weight matrices and the bias row. Every
  row of the result lies in the block of the point ⌊row / 2048⌋, so the whole array ends at that function.
-/
import proofs.«121737_j32229434589221_1_alg».proof.Proof.KRun
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result as a whole-array function of what the region finds in the five staged arrays. -/
def result (c : Dev nD) : S100000x128.Idx → EReal := fun i =>
  Cert.Spec.kernelEntry (n := 100000) (V m c main_v57) (V m c main_v56) (V m c main_arg4) (V m c main_arg6) (V m c main_v61)
    (i 0) (i 1)

/-- The printed index maps and cuts, decided over the grid's 49 points: the three row windows sit at block (t, 0),
    cut to the rows that remain; the resident windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.xsize (grid0.coords t) (0 : Fin 2) = min 2048 (100000 - t.val * 2048)
    ∧ win0_5.xsize (grid0.coords t) (1 : Fin 2) = 128 :=
  (by decide +kernel : ∀ t : Fin grid0.N, _)

/-! ## The staged blocks read off their arrays -/

/-- Where the elements of the row windows' blocks sit in their arrays: block (t, 0), so row 2048·t + y₀, column y₁. -/
theorem emb0 (t : Fin cfg0.N) (y : (win0_0.xblock (grid0.coords t)).Idx) (r : Fin 100000) (cc : Fin 128)
    (hr : r.val = t.val * 2048 + (y 0).val) (hc : cc.val = (y 1).val) :
    (((cfg0.win 0).blk t).view.emb y : S100000x128.Idx) = ix2 r cc := by
  obtain ⟨e0, e1, -⟩ := idx_facts t
  funext a; apply Fin.ext
  match a with
  | ⟨0, _⟩ => show win0_0.index t (0 : Fin 2) * 2048 + 1 * (y 0).val = r.val; rw [e0, hr]; omega
  | ⟨1, _⟩ => show win0_0.index t (1 : Fin 2) * 128 + 1 * (y 1).val = cc.val; rw [e1, hc]; omega

theorem emb1 (t : Fin cfg0.N) (y : (win0_1.xblock (grid0.coords t)).Idx) (r : Fin 100000) (cc : Fin 128)
    (hr : r.val = t.val * 2048 + (y 0).val) (hc : cc.val = (y 1).val) :
    (((cfg0.win 1).blk t).view.emb y : S100000x128.Idx) = ix2 r cc := by
  obtain ⟨-, -, e0, e1, -⟩ := idx_facts t
  funext a; apply Fin.ext
  match a with
  | ⟨0, _⟩ => show win0_1.index t (0 : Fin 2) * 2048 + 1 * (y 0).val = r.val; rw [e0, hr]; omega
  | ⟨1, _⟩ => show win0_1.index t (1 : Fin 2) * 128 + 1 * (y 1).val = cc.val; rw [e1, hc]; omega

/-- The resident windows sit at block (0, 0): an element of the block is the same element of the array. -/
theorem emb2 (t : Fin cfg0.N) (a b : Fin 128) : (((cfg0.win 2).blk t).view.emb (ix2 a b) : S128x128.Idx) = ix2 a b := by
  obtain ⟨-, -, -, -, -, -, e0, e1, -⟩ := idx_facts t
  funext ax; apply Fin.ext
  match ax with
  | ⟨0, _⟩ => show win0_2.index t (0 : Fin 2) * 128 + 1 * a.val = a.val; rw [e0]; omega
  | ⟨1, _⟩ => show win0_2.index t (1 : Fin 2) * 128 + 1 * b.val = b.val; rw [e1]; omega

theorem emb3 (t : Fin cfg0.N) (a b : Fin 128) : (((cfg0.win 3).blk t).view.emb (ix2 a b) : S128x128.Idx) = ix2 a b := by
  obtain ⟨-, -, -, -, -, -, -, -, e0, e1, -⟩ := idx_facts t
  funext ax; apply Fin.ext
  match ax with
  | ⟨0, _⟩ => show win0_3.index t (0 : Fin 2) * 128 + 1 * a.val = a.val; rw [e0]; omega
  | ⟨1, _⟩ => show win0_3.index t (1 : Fin 2) * 128 + 1 * b.val = b.val; rw [e1]; omega

theorem emb4 (t : Fin cfg0.N) (b : Fin 128) :
    (((cfg0.win 4).blk t).view.emb (ix2 (0 : Fin 1) b) : S1x128.Idx) = ix2 (0 : Fin 1) b := by
  obtain ⟨-, -, -, -, -, -, -, -, -, -, e0, e1, -⟩ := idx_facts t
  funext ax; apply Fin.ext
  match ax with
  | ⟨0, _⟩ => show win0_4.index t (0 : Fin 2) * 1 + 1 * 0 = 0; rw [e0]
  | ⟨1, _⟩ => show win0_4.index t (1 : Fin 2) * 128 + 1 * b.val = b.val; rw [e1]; omega

/-- A block read through its window is the array read where the element sits, for any array contents. -/
theorem readAt0 (A : S100000x128.Idx → EReal) (t : Fin cfg0.N) (y : (win0_0.xblock (grid0.coords t)).Idx) (r : Fin 100000)
    (cc : Fin 128) (hr : r.val = t.val * 2048 + (y 0).val) (hc : cc.val = (y 1).val) :
    ((cfg0.win 0).blk t).view.read (Elt Ideal) A y = A (ix2 r cc) := by
  show A (((cfg0.win 0).blk t).view.emb y) = A (ix2 r cc)
  rw [emb0 t y r cc hr hc]
theorem readAt1 (A : S100000x128.Idx → EReal) (t : Fin cfg0.N) (y : (win0_1.xblock (grid0.coords t)).Idx) (r : Fin 100000)
    (cc : Fin 128) (hr : r.val = t.val * 2048 + (y 0).val) (hc : cc.val = (y 1).val) :
    ((cfg0.win 1).blk t).view.read (Elt Ideal) A y = A (ix2 r cc) := by
  show A (((cfg0.win 1).blk t).view.emb y) = A (ix2 r cc)
  rw [emb1 t y r cc hr hc]
theorem readAt2 (A : S128x128.Idx → EReal) (t : Fin cfg0.N) (a b : Fin 128) :
    ((cfg0.win 2).blk t).view.read (Elt Ideal) A (ix2 a b) = A (ix2 a b) := by
  show A (((cfg0.win 2).blk t).view.emb (ix2 a b)) = A (ix2 a b)
  rw [emb2 t a b]
theorem readAt3 (A : S128x128.Idx → EReal) (t : Fin cfg0.N) (a b : Fin 128) :
    ((cfg0.win 3).blk t).view.read (Elt Ideal) A (ix2 a b) = A (ix2 a b) := by
  show A (((cfg0.win 3).blk t).view.emb (ix2 a b)) = A (ix2 a b)
  rw [emb3 t a b]
theorem readAt4 (A : S1x128.Idx → EReal) (t : Fin cfg0.N) (b : Fin 128) :
    ((cfg0.win 4).blk t).view.read (Elt Ideal) A (ix2 (0 : Fin 1) b) = A (ix2 (0 : Fin 1) b) := by
  show A (((cfg0.win 4).blk t).view.emb (ix2 (0 : Fin 1) b)) = A (ix2 (0 : Fin 1) b)
  rw [emb4 t b]

theorem read0 (c : Dev nD) (t : Fin cfg0.N) (y : (win0_0.xblock (grid0.coords t)).Idx) (r : Fin 100000) (cc : Fin 128)
    (hr : r.val = t.val * 2048 + (y 0).val) (hc : cc.val = (y 1).val) :
    iblk m c 0 t y = V m c main_v57 (ix2 r cc) := readAt0 (V m c main_v57) t y r cc hr hc
theorem read1 (c : Dev nD) (t : Fin cfg0.N) (y : (win0_1.xblock (grid0.coords t)).Idx) (r : Fin 100000) (cc : Fin 128)
    (hr : r.val = t.val * 2048 + (y 0).val) (hc : cc.val = (y 1).val) :
    iblk m c 1 t y = V m c main_v56 (ix2 r cc) := readAt1 (V m c main_v56) t y r cc hr hc
theorem read2 (c : Dev nD) (t : Fin cfg0.N) (a b : Fin 128) : iblk m c 2 t (ix2 a b) = V m c main_arg4 (ix2 a b) :=
  readAt2 (V m c main_arg4) t a b
theorem read3 (c : Dev nD) (t : Fin cfg0.N) (a b : Fin 128) : iblk m c 3 t (ix2 a b) = V m c main_arg6 (ix2 a b) :=
  readAt3 (V m c main_arg6) t a b
theorem read4 (c : Dev nD) (t : Fin cfg0.N) (b : Fin 128) :
    iblk m c 4 t (ix2 (0 : Fin 1) b) = V m c main_v61 (ix2 (0 : Fin 1) b) := readAt4 (V m c main_v61) t b

/-! ## What a point writes back -/

/-- The entry function depends on its arrays only through row r of the row arrays, column q of the matrices and
    entry q of the bias row. -/
theorem kernelEntry_congr {n n' : Nat} (A C : (⟨2, ![n, 128]⟩ : Shape).Idx → EReal) (A' C' : (⟨2, ![n', 128]⟩ : Shape).Idx → EReal)
    (W₁ W₂ W₁' W₂' : (⟨2, ![128, 128]⟩ : Shape).Idx → EReal) (β β' : (⟨2, ![1, 128]⟩ : Shape).Idx → EReal)
    (p : Fin n) (r : Fin n') (q : Fin 128)
    (hA : ∀ cc : Fin 128, A (ix2 p cc) = A' (ix2 r cc)) (hC : ∀ cc : Fin 128, C (ix2 p cc) = C' (ix2 r cc))
    (h1 : ∀ cc : Fin 128, W₁ (ix2 cc q) = W₁' (ix2 cc q)) (h2 : ∀ cc : Fin 128, W₂ (ix2 cc q) = W₂' (ix2 cc q))
    (hβ : β (ix2 (0 : Fin 1) q) = β' (ix2 (0 : Fin 1) q)) :
    Cert.Spec.kernelEntry A C W₁ W₂ β p q = Cert.Spec.kernelEntry A' C' W₁' W₂' β' r q := by
  unfold Cert.Spec.kernelEntry Cert.Spec.rowDot
  simp only [hA, hC, h1, h2, hβ]

theorem result_apply (c : Dev nD) (r : Fin 100000) (q : Fin 128) :
    result m c (ix2 r q) = Cert.Spec.kernelEntry (n := 100000) (V m c main_v57) (V m c main_v56) (V m c main_arg4)
      (V m c main_arg6) (V m c main_v61) r q := rfl

/-- A row of a filled block inside the array is the array's row. -/
theorem rows0_apply (c : Dev nD) (t : Fin cfg0.N) (p : Fin 2048) (hp : p.val < win0_5.xsize (grid0.coords t) (0 : Fin 2))
    (r : Fin 100000) (hr : r.val = t.val * 2048 + p.val) (cc : Fin 128) :
    rows0 m c t (ix2 p cc) = V m c main_v57 (ix2 r cc) := by
  unfold rows0 Window.fill
  rw [dif_pos (moved_row (grid0.coords t) p hp cc).1]
  exact read0 m c t _ r cc hr rfl

theorem rows1_apply (c : Dev nD) (t : Fin cfg0.N) (p : Fin 2048) (hp : p.val < win0_5.xsize (grid0.coords t) (0 : Fin 2))
    (r : Fin 100000) (hr : r.val = t.val * 2048 + p.val) (cc : Fin 128) :
    rows1 m c t (ix2 p cc) = V m c main_v56 (ix2 r cc) := by
  unfold rows1 Window.fill
  rw [dif_pos (moved_row (grid0.coords t) p hp cc).2]
  exact read1 m c t _ r cc hr rfl

/-- Entry (p, q) of the stored block at point t is entry (2048·t + p, q) of `result`, for a row inside the array. -/
theorem stored_apply (c : Dev nD) (t : Fin cfg0.N) (p : Fin 2048) (hp : p.val < win0_5.xsize (grid0.coords t) (0 : Fin 2))
    (r : Fin 100000) (hr : r.val = t.val * 2048 + p.val) (q : Fin 128) :
    stored m c t (ix2 p q) = result m c (ix2 r q) := by
  rw [result_apply]
  unfold stored
  rw [payload_apply]
  exact kernelEntry_congr _ _ _ _ _ _ _ _ _ _ _ _ _ (rows0_apply m c t p hp r hr) (rows1_apply m c t p hp r hr)
    (fun cc => read2 m c t cc q) (fun cc => read3 m c t cc q) (read4 m c t q)

/-- The block coordinates and the array coordinates of an element of the output's cut block at point t. -/
theorem out_coords (t : Fin cfg0.N) (j : (win0_5.xblock (grid0.coords t)).Idx) :
    ∃ (p : Fin 2048) (q : Fin 128) (r : Fin 100000), p.val < win0_5.xsize (grid0.coords t) (0 : Fin 2)
      ∧ r.val = t.val * 2048 + p.val
      ∧ (win0_5.xinj (grid0.coords t) j : S2048x128.Idx) = ix2 p q
      ∧ (((cfg0.win 5).blk t).view.emb j : S100000x128.Idx) = ix2 r q := by
  obtain ⟨-, -, -, -, e0, e1, -, -, -, -, -, -, x0, x1⟩ := idx_facts t
  have hj0 : (j 0).val < win0_5.xsize (grid0.coords t) (0 : Fin 2) := (j 0).isLt
  have hj1 : (j 1).val < win0_5.xsize (grid0.coords t) (1 : Fin 2) := (j 1).isLt
  have ht : t.val < 49 := t.isLt
  have hp : (j 0).val < 2048 := by rw [x0] at hj0; omega
  have hq : (j 1).val < 128 := by rw [x1] at hj1; exact hj1
  have hr : t.val * 2048 + (j 0).val < 100000 := by rw [x0] at hj0; omega
  refine ⟨⟨(j 0).val, hp⟩, ⟨(j 1).val, hq⟩, ⟨t.val * 2048 + (j 0).val, hr⟩, hj0, rfl, ?_, ?_⟩
  · funext a; apply Fin.ext
    match a with
    | ⟨0, _⟩ => rfl
    | ⟨1, _⟩ => rfl
  · funext a; apply Fin.ext
    match a with
    | ⟨0, _⟩ => show win0_5.index t (0 : Fin 2) * 2048 + 1 * (j 0).val = t.val * 2048 + (j 0).val; rw [e0]; omega
    | ⟨1, _⟩ => show win0_5.index t (1 : Fin 2) * 128 + 1 * (j 1).val = (j 1).val; rw [e1]; omega

/-- The cut of a block at an element, and a read through the output's window at an element, for any contents. -/
theorem cutAt5 (X : S2048x128.Idx → EReal) (i : grid0.Coords) (j : (win0_5.xblock i).Idx) :
    win0_5.cut i X j = X (win0_5.xinj i j : S2048x128.Idx) := rfl
theorem readAt5 (A : S100000x128.Idx → EReal) (t : Fin cfg0.N) (j : (win0_5.xblock (grid0.coords t)).Idx) :
    ((cfg0.win 5).blk t).view.read (Elt Ideal) A j = A (((cfg0.win 5).blk t).view.emb j : S100000x128.Idx) := rfl

/-- Point t writes back block t of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  funext j
  obtain ⟨p, q, r, hp, hr, hJ, hE⟩ := out_coords t j
  refine (cutAt5 (stored m c t) (grid0.coords t) j).trans ?_
  refine Eq.trans ?_ (readAt5 (result m c) t j).symm
  rw [hJ, hE]
  exact stored_apply m c t p hp r hr q

/-! ## The cover -/

/-- An index of the result is in point t's block iff its coordinates are in the block's cut ranges. -/
theorem mem_blk (t : Fin cfg0.N) (i : S100000x128.Idx) :
    i ∈ ((cfg0.win 5).blk t).view.set ↔ ∀ a : Fin 2, win0_5.index t a * S2048x128.size a ≤ (i a).val
      ∧ (i a).val < win0_5.index t a * S2048x128.size a + win0_5.xsize (grid0.coords t) a := by
  show i ∈ ((View.whole main_v62).slice (win0_5.rect t)).set ↔ _
  rw [View.set_slice_whole, Rect.mem_set_unit]
  exact Iff.rfl

/-- Every index of the result is in the block of the point ⌊row / 2048⌋. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 2048, by show (i 0).val / 2048 < 49; omega⟩, flush0_5 _, ?_⟩
  rw [mem_blk]
  obtain ⟨-, -, -, -, e0, e1, -, -, -, -, -, -, x0, x1⟩ := idx_facts ⟨(i 0).val / 2048, by show (i 0).val / 2048 < 49; omega⟩
  intro a
  match a with
  | ⟨0, _⟩ =>
    show win0_5.index _ (0 : Fin 2) * 2048 ≤ (i 0).val ∧ (i 0).val < win0_5.index _ (0 : Fin 2) * 2048 + win0_5.xsize _ (0 : Fin 2)
    rw [e0, x0]
    show (i 0).val / 2048 * 2048 ≤ (i 0).val ∧ (i 0).val < (i 0).val / 2048 * 2048 + min 2048 (100000 - (i 0).val / 2048 * 2048)
    omega
  | ⟨1, _⟩ =>
    show win0_5.index _ (1 : Fin 2) * 128 ≤ (i 1).val ∧ (i 1).val < win0_5.index _ (1 : Fin 2) * 128 + win0_5.xsize _ (1 : Fin 2)
    rw [e1, x1]; omega

/-- The result array after the last write-back. -/
theorem final (c : Dev nD) : (dats m 0 c).arrAt 5 cfg0.N = result m c :=
  (dats m 0 c).arrAt_eq_of_cover 5 (result m c) (fun t _ => flushed_eq m c t) cover

/-- The run, with the result named and the arguments unchanged. -/
theorem run : θ_run defs (onTc (τ := τ) (main (F := Ideal))) ⟨m, fun _ => 0, ρ⟩ (fun r => ∀ c : Dev nD,
      r.2.mem ((c.tc : Thread nD τ).loc main_v62) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).1 3).trans (((dats m 0 c).arrAt_in 3 rfl _).trans ((A_eq m c 3).trans (V_main_arg6 m c))),
      ((h c).2 main_arg7 (Pipeline.mem_restRefs_of main_arg7 (by decide) (by decide))).trans (V_main_arg7 m c)⟩)
    (run_main m ρ)

end Cert.KernelIdeal.Hand

end
-- ==== Proof.HostSide.lean ====
/-
  The host operations before the kernel's region, read at the three arrays the region stages from them, and the two
  neighbourhood sums as the SAME function of the arguments in both programs.

  Before the region the kernel's program computes, with the reference's own operations, the degree sums, the edge
  weights, and the two weighted neighbourhood sums S (of the features) and S₂ (of their squares); then x + S, and the
  combined bias 2·b₁ + b₂ laid out as one row. The two sums are never opened: each program's operations are composed
  into one term of the arguments, and the two terms are the same term.
-/
import proofs.«121737_j32229434589221_1_alg».proof.Proof.Gen.KernelIdeal.Frame
import proofs.«121737_j32229434589221_1_alg».proof.Proof.RefRun
import Idealize.ShloMosaic.Lib.StableHlo.Run
import Idealize.ShloMosaic.Lib.ValueLayout

set_option maxRecDepth 16384

noncomputable section

namespace Cert.HostSide

open Idealize.ShloMosaic Idealize.ShloMosaic.TcCoe Idealize.SL.Sem Idealize.ShloMosaic.StableHlo Idealize.ShloMosaic.ValueIdx

/-- Buffer contents of the kernel's program and of the reference. -/
abbrev KV := Valuation Cert.KernelIdeal.τ Cert.KernelIdeal.sig (Elt Ideal)
abbrev RV := Valuation Cert.ReferenceIdeal.τ Cert.ReferenceIdeal.sig (Elt Ideal)

/-- The kernel program's host operations before its region, in order. -/
abbrev kops : List (HloOp Cert.KernelIdeal.τ Cert.KernelIdeal.sig (Elt Ideal)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4]

set_option maxHeartbeats 4000000 in
/-- The first staged array is x + S. -/
theorem host_sum (V : KV) :
    after kops V (Cert.KernelIdeal.main_v57 : DevRef Cert.KernelIdeal.τ Cert.KernelIdeal.sig)
      = addf (F := Ideal) (s := Cert.KernelIdeal.S100000x128) (φ := .f32)
          (V (Cert.KernelIdeal.main_arg3 : DevRef Cert.KernelIdeal.τ Cert.KernelIdeal.sig))
          (after kops V (Cert.KernelIdeal.main_v42 : DevRef Cert.KernelIdeal.τ Cert.KernelIdeal.sig)) := by
  simp only [kops, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil,
    List.cons_append, List.nil_append]
  after_results_simp

set_option maxHeartbeats 4000000 in
/-- The bias row the region stages is 2·b₁ + b₂. -/
theorem host_bias_apply (V : KV) (q : Fin 128) :
    (after kops V (Cert.KernelIdeal.main_v61 : DevRef Cert.KernelIdeal.τ Cert.KernelIdeal.sig) : Cert.KernelIdeal.S1x128.Idx → EReal)
        (ix2 (0 : Fin 1) q)
      = Ideal.ofBits .f32 0x40000000#32
          * (V (Cert.KernelIdeal.main_arg5 : DevRef Cert.KernelIdeal.τ Cert.KernelIdeal.sig) : Cert.KernelIdeal.S128.Idx → EReal) (ix1 q)
        + (V (Cert.KernelIdeal.main_arg7 : DevRef Cert.KernelIdeal.τ Cert.KernelIdeal.sig) : Cert.KernelIdeal.S128.Idx → EReal) (ix1 q) := by
  simp only [kops, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil,
    List.cons_append, List.nil_append]
  after_results_simp
  exact shapeCast_a_1a_apply _ Cert.KernelIdeal.Gen.shapeCasts_S128_S1x128 (0 : Fin 1) q

set_option maxHeartbeats 8000000 in
/-- The two neighbourhood sums are the same terms of the arguments in both programs. -/
theorem shared (Vk : KV) (Vr : RV)
    (h0 : Vr (Cert.ReferenceIdeal.main_arg0 : DevRef Cert.ReferenceIdeal.τ Cert.ReferenceIdeal.sig)
      = Vk (Cert.KernelIdeal.main_arg0 : DevRef Cert.KernelIdeal.τ Cert.KernelIdeal.sig))
    (h1 : Vr (Cert.ReferenceIdeal.main_arg1 : DevRef Cert.ReferenceIdeal.τ Cert.ReferenceIdeal.sig)
      = Vk (Cert.KernelIdeal.main_arg1 : DevRef Cert.KernelIdeal.τ Cert.KernelIdeal.sig))
    (h2 : Vr (Cert.ReferenceIdeal.main_arg2 : DevRef Cert.ReferenceIdeal.τ Cert.ReferenceIdeal.sig)
      = Vk (Cert.KernelIdeal.main_arg2 : DevRef Cert.KernelIdeal.τ Cert.KernelIdeal.sig))
    (h3 : Vr (Cert.ReferenceIdeal.main_arg3 : DevRef Cert.ReferenceIdeal.τ Cert.ReferenceIdeal.sig)
      = Vk (Cert.KernelIdeal.main_arg3 : DevRef Cert.KernelIdeal.τ Cert.KernelIdeal.sig)) :
    after (Cert.ReferenceIdeal.Hand.ops (F := Ideal)) Vr (Cert.ReferenceIdeal.main_v46 : DevRef Cert.ReferenceIdeal.τ Cert.ReferenceIdeal.sig)
        = after kops Vk (Cert.KernelIdeal.main_v42 : DevRef Cert.KernelIdeal.τ Cert.KernelIdeal.sig)
      ∧ after (Cert.ReferenceIdeal.Hand.ops (F := Ideal)) Vr (Cert.ReferenceIdeal.main_v64 : DevRef Cert.ReferenceIdeal.τ Cert.ReferenceIdeal.sig)
        = after kops Vk (Cert.KernelIdeal.main_v56 : DevRef Cert.KernelIdeal.τ Cert.KernelIdeal.sig) := by
  simp only [kops, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil,
    List.cons_append, List.nil_append]
  constructor
  · after_results_simp
    rw [h0, h1, h2, h3]
    rfl
  · after_results_simp
    rw [h0, h1, h2, h3]
    rfl

end Cert.HostSide

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.RefEntry.lean ====
/-
  The reference's result read at one entry, on the extended reals.

  At row r and column q the result is the leaky rectifier of the sum of three terms, each a row of an array against
  a column of a weight matrix plus the bias at q: the node features with the first weight, the neighbourhood sum
  with the first weight, and the neighbourhood sum of squares with the second weight.
-/
import proofs.«121737_j32229434589221_1_alg».proof.Proof.RefOut
import proofs.«121737_j32229434589221_1_alg».proof.Proof.Spec
import proofs.«121737_j32229434589221_1_alg».proof.Proof.LibPlainDot
import proofs.«121737_j32229434589221_1_alg».proof.Proof.LibRowWise

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The program's matrix product is the plain one: rows by contraction times contraction by columns. -/
theorem dot_eq_plain :
    dot_S100000x128_S128x128_S100000x128_1_0_0_1_n_n = DotDims.plain 100000 128 128 := rfl

/-- A scalar constant broadcast to the whole array reads the constant everywhere: the broadcast reads the scalar at
    its one (empty) index, and a constant is the same at every index. -/
theorem scalarConst_apply (b : BitVec 32) (j : S100000x128.Idx) :
    broadcastInDim S100000x128 ![] bcast_S_S100000x128 (constant (F := Ideal) S_ .f32 b) j = Ideal.ofBits .f32 b := rfl

/-- A biased product at (r, q): row r against column q of the weight, plus the bias at q. -/
theorem biasedDot_apply (A : (⟨S100000x128, .f32⟩ : BufTy).Contents (Elt Ideal)) (W : (⟨S128x128, .f32⟩ : BufTy).Contents (Elt Ideal))
    (B : (⟨S128, .f32⟩ : BufTy).Contents (Elt Ideal)) (r : Fin 100000) (q : Fin 128) :
    biasedDot (F := Ideal) A W B (ix2 r q) = Cert.Spec.rowDot A W r q + B (ix1 q) := by
  unfold biasedDot Cert.Spec.rowDot
  rw [addf_apply, dot_eq_plain, hostDotGeneral_plain_apply, Cert.RowWise.biasRow_apply]

/-- The reference's result at (r, q). -/
theorem refTail_apply (X SX SX2 : (⟨S100000x128, .f32⟩ : BufTy).Contents (Elt Ideal)) (W1 W2 : (⟨S128x128, .f32⟩ : BufTy).Contents (Elt Ideal))
    (B1 B2 : (⟨S128, .f32⟩ : BufTy).Contents (Elt Ideal)) (r : Fin 100000) (q : Fin 128) :
    refTail (F := Ideal) X SX SX2 W1 W2 B1 B2 (ValueIdx.ix2 r q) = Cert.Spec.referenceEntry X SX SX2 W1 W2 B1 B2 r q := by
  unfold refTail Cert.Spec.referenceEntry Cert.Spec.leaky
  simp only [select_apply, cmpf_apply, mulf_apply, addf_apply, biasedDot_apply]
  rw [scalarConst_apply, scalarConst_apply]

end Cert.ReferenceIdeal.Hand

end
-- ==== Proof.RefFinal.lean ====
/-
  The reference's run with its result read entry by entry, on the extended reals.

  Every weakly fair execution terminates with the result buffer holding, at row r and column q, the leaky rectifier
  of the three biased products of the launch contents (the node features and the two weights and biases) and of the
  two neighbourhood sums the program computes on the way; the eight arguments end as they were.
-/
import proofs.«121737_j32229434589221_1_alg».proof.Proof.RefOut
import proofs.«121737_j32229434589221_1_alg».proof.Proof.RefEntry

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The fold at the result buffer, entry by entry: an index of the [100000,128] array is its two coordinates, and
    at them the composed last operations are the reference's entry. -/
theorem result_entry (V : Valuation τ sig (Elt Ideal)) :
    after ops V (main_v71 : DevRef τ sig)
      = (fun i : S100000x128.Idx => Cert.Spec.referenceEntry (n := 100000) (V (main_arg3 : DevRef τ sig))
          (after ops V (main_v46 : DevRef τ sig)) (after ops V (main_v64 : DevRef τ sig))
          (V (main_arg4 : DevRef τ sig)) (V (main_arg6 : DevRef τ sig))
          (V (main_arg5 : DevRef τ sig)) (V (main_arg7 : DevRef τ sig)) (i 0) (i 1)) := by
  refine (out_eq V).trans (funext fun i => ?_)
  obtain ⟨r, q, rfl⟩ : ∃ (r : Fin 100000) (q : Fin 128), i = ix2 r q := ⟨i 0, i 1, eq_ix2 i⟩
  exact refTail_apply _ _ _ _ _ _ _ r q

/-- The run: the result entry by entry, then the eight arguments unchanged. -/
theorem run_entry (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v71)
          = (fun i : S100000x128.Idx => Cert.Spec.referenceEntry (n := 100000) (m ((c.tc : Thread nD τ).loc main_arg3))
              (after ops (launchContents m c) (main_v46 : DevRef τ sig)) (after ops (launchContents m c) (main_v64 : DevRef τ sig))
              (m ((c.tc : Thread nD τ).loc main_arg4)) (m ((c.tc : Thread nD τ).loc main_arg6))
              (m ((c.tc : Thread nD τ).loc main_arg5)) (m ((c.tc : Thread nD τ).loc main_arg7)) (i 0) (i 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  (θ_run defs _ _).mono (fun _ h c =>
    ⟨(h c main_v71).trans (result_entry (launchContents m c)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.Hand

end
-- ==== Proof.Algebra.lean ====
/-
  The law joining the two arrangements, on the extended reals.

  The kernel multiplies (x + S) by W₁ once and adds the combined bias 2·b₁ + b₂; the reference multiplies x and S by
  W₁ separately and adds b₁ twice and b₂ once. The two agree because a REAL summand distributes over a product with a
  real factor whatever the other summand is — (x + s)·w = x·w + s·w for real x, w and any extended real s, infinite
  ones included — and because addition of extended reals is commutative and associative; 2·b₁ = b₁ + b₁ for real b₁.
  Nothing is asked of S, of the squares' sum, of W₂ or of b₂.
-/
import proofs.«121737_j32229434589221_1_alg».proof.Proof.Spec

noncomputable section

open scoped BigOperators

namespace Cert.Spec

open Idealize.ShloMosaic Idealize.ShloMosaic.ValueIdx

/-- A real summand distributes over a real factor, whatever the other summand. -/
theorem coe_add_mul_coe (x w : ℝ) (s : EReal) : ((x : EReal) + s) * (w : EReal) = (x : EReal) * w + s * w := by
  induction s using EReal.rec with
  | bot =>
    rw [EReal.add_bot]
    rcases lt_trichotomy w 0 with h | h | h
    · rw [EReal.bot_mul_coe_of_neg h, ← EReal.coe_mul, EReal.coe_add_top]
    · subst h; simp
    · rw [EReal.bot_mul_coe_of_pos h, EReal.add_bot]
  | coe y =>
    rw [← EReal.coe_add, ← EReal.coe_mul, ← EReal.coe_mul, ← EReal.coe_mul, ← EReal.coe_add, add_mul]
  | top =>
    rw [EReal.coe_add_top]
    rcases lt_trichotomy w 0 with h | h | h
    · rw [EReal.top_mul_coe_of_neg h, EReal.add_bot]
    · subst h; simp
    · rw [EReal.top_mul_coe_of_pos h, ← EReal.coe_mul, EReal.coe_add_top]

/-- The word 0x40000000 is the real number 2. -/
theorem ofBits_two : Ideal.ofBits .f32 0x40000000#32 = ((2 : ℝ) : EReal) := by
  simp [Ideal.ofBits, Ideal.ieee, -EReal.coe_mul]; norm_num

/-- Twice a real is the real added to itself. -/
theorem two_mul_coe (v : ℝ) : ((2 : ℝ) : EReal) * (v : EReal) = (v : EReal) + v := by
  rw [← EReal.coe_mul, ← EReal.coe_add, two_mul]

/-- The product of (x + S) with W₁ along a row splits into the two products, when the row of x and the column of
    W₁ are real. -/
theorem rowDot_add {n : Nat} (A X S : (⟨2, ![n, 128]⟩ : Shape).Idx → EReal) (W : (⟨2, ![128, 128]⟩ : Shape).Idx → EReal)
    (r : Fin n) (q : Fin 128) (hA : ∀ c : Fin 128, A (ix2 r c) = X (ix2 r c) + S (ix2 r c))
    (hX : ∀ c : Fin 128, ∃ x : ℝ, X (ix2 r c) = x) (hW : ∀ c : Fin 128, ∃ w : ℝ, W (ix2 c q) = w) :
    rowDot A W r q = rowDot X W r q + rowDot S W r q := by
  unfold rowDot
  rw [← Finset.sum_add_distrib]
  refine Finset.sum_congr rfl fun c _ => ?_
  obtain ⟨x, hx⟩ := hX c
  obtain ⟨w, hw⟩ := hW c
  rw [hA c, hx, hw, coe_add_mul_coe]

/-- The two entries agree. -/
theorem kernelEntry_eq_referenceEntry {n : Nat} (A X S C : (⟨2, ![n, 128]⟩ : Shape).Idx → EReal)
    (W₁ W₂ : (⟨2, ![128, 128]⟩ : Shape).Idx → EReal) (β : (⟨2, ![1, 128]⟩ : Shape).Idx → EReal)
    (b₁ b₂ : (⟨1, ![128]⟩ : Shape).Idx → EReal) (r : Fin n) (q : Fin 128)
    (hA : ∀ c : Fin 128, A (ix2 r c) = X (ix2 r c) + S (ix2 r c))
    (hβ : β (ix2 (0 : Fin 1) q) = Ideal.ofBits .f32 0x40000000#32 * b₁ (ix1 q) + b₂ (ix1 q))
    (hX : ∀ c : Fin 128, ∃ x : ℝ, X (ix2 r c) = x) (hW : ∀ c : Fin 128, ∃ w : ℝ, W₁ (ix2 c q) = w)
    (hb : ∃ v : ℝ, b₁ (ix1 q) = v) :
    kernelEntry A C W₁ W₂ β r q = referenceEntry X S C W₁ W₂ b₁ b₂ r q := by
  unfold kernelEntry referenceEntry
  obtain ⟨v, hv⟩ := hb
  rw [rowDot_add A X S W₁ r q hA hX hW, hβ, ofBits_two, hv, two_mul_coe]
  refine congrArg leaky ?_
  ac_rfl

end Cert.Spec

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.Finite.lean ====
/-
  What the precondition gives: every entry of x, of W₁ and of b₁ is a real number.

  The precondition is the conjunction, over the six float arguments, of "every entry's absolute value is below +∞".
  A conjunction that is 1 has every conjunct 1; a reduction by `and` that is 1 has every element 1; and an extended
  real whose absolute value is below +∞ is a real.
-/
import proofs.«121737_j32229434589221_1_alg».proof.Pre_finite_inputs
import proofs.«121737_j32229434589221_1_alg».proof.Proof.LibERealFinite
import Idealize.ShloMosaic.Lib.ReduceAll
import Idealize.ShloMosaic.Lib.Affine
import Idealize.ShloMosaic.Lib.ValueIdx

noncomputable section

namespace Cert.Finite

open Idealize.ShloMosaic Cert.Pre_finite_inputs

variable [Cert.Pre_finite_inputs.Facts]

instance : Subsingleton S_.Idx := ⟨fun a b => funext fun d => d.elim0⟩

/-- Under the precondition the node features, the first weight matrix and the first bias hold real numbers. -/
theorem reals_of_pre (a0 a1 : IVec S800000 32) (a2 : FVec Ideal S800000 .f32) (a3 : FVec Ideal S100000x128 .f32)
    (a4 : FVec Ideal S128x128 .f32) (a5 : FVec Ideal S128 .f32) (a6 : FVec Ideal S128x128 .f32) (a7 : FVec Ideal S128 .f32)
    (h : fn (F := Ideal) a0 a1 a2 a3 a4 a5 a6 a7 = fun _ => 1#1) :
    (∀ i, ∃ v : ℝ, a3 i = (v : EReal)) ∧ (∀ i, ∃ v : ℝ, a4 i = (v : EReal)) ∧ (∀ i, ∃ v : ℝ, a5 i = (v : EReal)) := by
  have h0 := congrFun h ValueIdx.ix0
  dsimp only [fn, fn_part1] at h0
  obtain ⟨h0, -⟩ := IntOp.andi_eq_one.1 h0
  obtain ⟨h0, -⟩ := IntOp.andi_eq_one.1 h0
  obtain ⟨h0, h5⟩ := IntOp.andi_eq_one.1 h0
  obtain ⟨h0, h4⟩ := IntOp.andi_eq_one.1 h0
  obtain ⟨-, h3⟩ := IntOp.andi_eq_one.1 h0
  exact ⟨fun i => Cert.LibERealFinite.real_of_abs_lt _ (Host.reduce_andi_all _ _ _ _ _ h3 i),
    fun i => Cert.LibERealFinite.real_of_abs_lt _ (Host.reduce_andi_all _ _ _ _ _ h4 i),
    fun i => Cert.LibERealFinite.real_of_abs_lt _ (Host.reduce_andi_all _ _ _ _ _ h5 i)⟩

end Cert.Finite

end
-- ==== Proof.Bridge.lean ====
/-
  The two idealized programs end with equal results.

  The kernel's result array is, entry by entry, the kernel's entry function of x + S, S₂, W₁, W₂ and the bias row
  2·b₁ + b₂ (the kernel's value and the host operations before its region); the reference's is the reference's entry
  function of x, S, S₂, W₁, W₂, b₁, b₂ (the reference's run); S and S₂ are the same arrays in both programs; and under
  the precondition x, W₁ and b₁ hold real numbers, so the two entry functions agree.
-/
import proofs.«121737_j32229434589221_1_alg».proof.Defs
import proofs.«121737_j32229434589221_1_alg».proof.Proof.KValue
import proofs.«121737_j32229434589221_1_alg».proof.Proof.HostSide
import proofs.«121737_j32229434589221_1_alg».proof.Proof.RefFinal
import proofs.«121737_j32229434589221_1_alg».proof.Proof.Algebra
import proofs.«121737_j32229434589221_1_alg».proof.Proof.Finite
import proofs.«121737_j32229434589221_1_alg».proof.Proof.Gen.Pre_finite_inputs

set_option maxRecDepth 16384

noncomputable section

namespace Cert.Bridge

open Idealize.ShloMosaic Idealize.ShloMosaic.TcCoe Idealize.SL.Sem Idealize.ShloMosaic.StableHlo Idealize.ShloMosaic.ValueIdx

/-- Entry (r, q) of the kernel's result is the reference's entry function of the kernel's own arguments and of the
    two neighbourhood sums as the kernel's host operations leave them. -/
theorem kernel_entry (m : (ℓ : Loc Cert.KernelIdeal.nD Cert.KernelIdeal.τ Cert.KernelIdeal.sig) → Buf (Elt Ideal) ℓ)
    (c : Dev Cert.KernelIdeal.nD) (hpre : Cert.Pre_KernelIdeal m) (r : Fin 100000) (q : Fin 128) :
    Cert.KernelIdeal.Hand.result m c (ix2 r q)
      = Cert.Spec.referenceEntry (n := 100000)
          (m ((c.tc : Thread Cert.KernelIdeal.nD Cert.KernelIdeal.τ).loc Cert.KernelIdeal.main_arg3))
          (Cert.KernelIdeal.Gen.V m c Cert.KernelIdeal.main_v42) (Cert.KernelIdeal.Gen.V m c Cert.KernelIdeal.main_v56)
          (m ((c.tc : Thread Cert.KernelIdeal.nD Cert.KernelIdeal.τ).loc Cert.KernelIdeal.main_arg4))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg7)) r q := by
  obtain ⟨hX, hW, hb⟩ := Cert.Finite.reals_of_pre _ _ _ _ _ _ _ _ (hpre c)
  rw [Cert.KernelIdeal.Hand.result_apply, Cert.KernelIdeal.Gen.V_main_arg4 m c, Cert.KernelIdeal.Gen.V_main_arg6 m c]
  have hsum := Cert.HostSide.host_sum (fun b => m (c, b))
  have hbias := Cert.HostSide.host_bias_apply (fun b => m (c, b)) q
  exact Cert.Spec.kernelEntry_eq_referenceEntry (n := 100000) _ _ _ _ _ _ _ _ _ r q
    (fun cc => congrFun hsum (ix2 r cc)) hbias (fun cc => hX _) (fun cc => hW _) (hb _)

/-- `algebraic`: the kernel's run names its result; the reference's run ends at the same array. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun r h c => ⟨(h c).1.trans ?_, (h c).2⟩)
    (Cert.ReferenceIdeal.Hand.run_entry m' ρ')
  obtain ⟨a0, a1, a2, a3, a4, a5, a6, a7⟩ := hagree c
  obtain ⟨hs, hs2⟩ := Cert.HostSide.shared (fun b => m (c, b)) (launchContents m' c) a0 a1 a2 a3
  funext i
  obtain ⟨r, q, rfl⟩ : ∃ (r : Fin 100000) (q : Fin 128), i = ix2 r q := ⟨i 0, i 1, eq_ix2 i⟩
  show Cert.Spec.referenceEntry (n := 100000) _ _ _ _ _ _ _ r q = Cert.KernelIdeal.Hand.result m c (ix2 r q)
  rw [kernel_entry m c hpre r q, hs, hs2, a3, a4, a5, a6, a7]

end Cert.Bridge

end
-- ==== Proof.lean ====
/-
  The certificate: a leaky-rectified sum of two dense layers over node features and their two neighbourhood sums,
  computed by a row-blocked kernel after the host's sparse sums, against the reference that applies three biased
  dense layers and adds them.

  The word-level kernel's frame forgets what the body stores (the frame does not read it) and states the two clipped
  row windows only on the rows inside their arrays. The idealized kernel's run names every buffer: its result array
  is one function of the arrays the region finds, entry by entry. The reference's run is its host operations composed.
  The two results agree because a real summand distributes over a real factor on the extended reals, and the inputs
  that must be real are real under the precondition. The idealization rewrote nothing, so `preserves` is trivial.
-/
import proofs.«121737_j32229434589221_1_alg».proof.Defs
import proofs.«121737_j32229434589221_1_alg».proof.Proof.Gen.Kernel
import proofs.«121737_j32229434589221_1_alg».proof.Proof.Gen.KernelIdeal
import proofs.«121737_j32229434589221_1_alg».proof.Proof.Gen.ReferenceIdeal
import proofs.«121737_j32229434589221_1_alg».proof.Proof.Gen.Pre_finite_inputs
import proofs.«121737_j32229434589221_1_alg».proof.Proof.KernelFrame
import proofs.«121737_j32229434589221_1_alg».proof.Proof.KRun
import proofs.«121737_j32229434589221_1_alg».proof.Proof.RefOut
import proofs.«121737_j32229434589221_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ
theorem frame_kernelIdeal : Cert.frame_KernelIdeal := fun m ρ _ => Cert.KernelIdeal.Hand.frame m ρ
theorem frame_referenceIdeal : Cert.frame_ReferenceIdeal := fun m ρ _ => Cert.ReferenceIdeal.Hand.frame (F := Ideal) m ρ
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Bridge.algebraic⟩

end Cert.Proof

end
